-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x16 : Shape := ⟨3, ![8, 32768, 16]⟩
abbrev S8x32x16 : Shape := ⟨3, ![8, 32, 16]⟩
abbrev S8x32x17 : Shape := ⟨3, ![8, 32, 17]⟩
abbrev S2x8 : Shape := ⟨2, ![2, 8]⟩
abbrev S2 : Shape := ⟨1, ![2]⟩
abbrev S_ : Shape := ⟨0, ![]⟩

class Facts : Prop where
  bcast_S_S8x32768x16 : S_.BroadcastsInDim S8x32768x16 (![] : Fin 0 → Fin S8x32768x16.rank)
  reducesTo_S8x32768x16_S_d0_1_2 : S8x32768x16.ReducesTo [0, 1, 2] S_
  h_S_ : 0 < S_.numel
  bcast_S_S8x32x16 : S_.BroadcastsInDim S8x32x16 (![] : Fin 0 → Fin S8x32x16.rank)
  reducesTo_S8x32x16_S_d0_1_2 : S8x32x16.ReducesTo [0, 1, 2] S_
  bcast_S_S8x32x17 : S_.BroadcastsInDim S8x32x17 (![] : Fin 0 → Fin S8x32x17.rank)
  reducesTo_S8x32x17_S_d0_1_2 : S8x32x17.ReducesTo [0, 1, 2] S_
  bcast_S_S2x8 : S_.BroadcastsInDim S2x8 (![] : Fin 0 → Fin S2x8.rank)
  reducesTo_S2x8_S_d0_1 : S2x8.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg2 : FVec F S8x32x16 .f32) (main_arg4 : FVec F S2x8 .f32) (main_arg5 : FVec F S2 .f32) (main_v13 : IVec S_ 1) (main_v16 : IVec S8x32x17 1) : IVec S_ 1 :=
  let main_c_5 : IVec S_ 1 := constantI S_ 1 1#1
  let main_v17 : IVec S_ 1 := (fun x v => Host.reduce IntOp.andi x v reducesTo_S8x32x17_S_d0_1_2 h_S_) main_v16 main_c_5
  let main_v18 : IVec S_ 1 := andi main_v13 main_v17
  let main_v19 : FVec F S2x8 .f32 := Host.absf main_arg4
  let main_cst_6 : FVec F S_ .f32 := constant S_ .f32 0x7F800000#32
  let main_v20 : FVec F S2x8 .f32 := broadcastInDim S2x8 ![] bcast_S_S2x8 main_cst_6
  let main_v21 : IVec S2x8 1 := cmpf .olt main_v19 main_v20
  let main_c_7 : IVec S_ 1 := constantI S_ 1 1#1
  let main_v22 : IVec S_ 1 := (fun x v => Host.reduce IntOp.andi x v reducesTo_S2x8_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_cst_10 : FVec F S_ .f32 := constant S_ .f32 0x00000000#32
  let main_v29 : FVec F S8x32x16 .f32 := broadcastInDim S8x32x16 ![] bcast_S_S8x32x16 main_cst_10
  let main_v30 : IVec S8x32x16 1 := cmpf .une main_arg2 main_v29
  let main_c_11 : IVec S_ 1 := constantI S_ 1 1#1
  let main_v31 : IVec S_ 1 := (fun x v => Host.reduce IntOp.andi x v reducesTo_S8x32x16_S_d0_1_2 h_S_) main_v30 main_c_11
  let main_v32 : IVec S_ 1 := andi main_v28 main_v31
  main_v32

def fn {F : FTy → Type} [FloatOps F] (main_arg0 : FVec F S8x32768x16 .f32) (main_arg1 : FVec F S8x32x16 .f32) (main_arg2 : FVec F S8x32x16 .f32) (main_arg3 : FVec F S8x32x17 .f32) (main_arg4 : FVec F S2x8 .f32) (main_arg5 : FVec F S2 .f32) : IVec S_ 1 :=
  let main_v0 : FVec F S8x32768x16 .f32 := Host.absf main_arg0
  let main_cst : FVec F S_ .f32 := constant S_ .f32 0x7F800000#32
  let main_v1 : FVec F S8x32768x16 .f32 := broadcastInDim S8x32768x16 ![] bcast_S_S8x32768x16 main_cst
  let main_v2 : IVec S8x32768x16 1 := cmpf .olt main_v0 main_v1
  let main_c : IVec S_ 1 := constantI S_ 1 1#1
  let main_v3 : IVec S_ 1 := (fun x v => Host.reduce IntOp.andi x v reducesTo_S8x32768x16_S_d0_1_2 h_S_) main_v2 main_c
  let main_v4 : FVec F S8x32x16 .f32 := Host.absf main_arg1
  let main_cst_0 : FVec F S_ .f32 := constant S_ .f32 0x7F800000#32
  let main_v5 : FVec F S8x32x16 .f32 := broadcastInDim S8x32x16 ![] bcast_S_S8x32x16 main_cst_0
  let main_v6 : IVec S8x32x16 1 := cmpf .olt main_v4 main_v5
  let main_c_1 : IVec S_ 1 := constantI S_ 1 1#1
  let main_v7 : IVec S_ 1 := (fun x v => Host.reduce IntOp.andi x v reducesTo_S8x32x16_S_d0_1_2 h_S_) main_v6 main_c_1
  let main_v8 : IVec S_ 1 := andi main_v3 main_v7
  let main_v9 : FVec F S8x32x16 .f32 := Host.absf main_arg2
  let main_cst_2 : FVec F S_ .f32 := constant S_ .f32 0x7F800000#32
  let main_v10 : FVec F S8x32x16 .f32 := broadcastInDim S8x32x16 ![] bcast_S_S8x32x16 main_cst_2
  let main_v11 : IVec S8x32x16 1 := cmpf .olt main_v9 main_v10
  let main_c_3 : IVec S_ 1 := constantI S_ 1 1#1
  let main_v12 : IVec S_ 1 := (fun x v => Host.reduce IntOp.andi x v reducesTo_S8x32x16_S_d0_1_2 h_S_) main_v11 main_c_3
  let main_v13 : IVec S_ 1 := andi main_v8 main_v12
  let main_v14 : FVec F S8x32x17 .f32 := Host.absf main_arg3
  let main_cst_4 : FVec F S_ .f32 := constant S_ .f32 0x7F800000#32
  let main_v15 : FVec F S8x32x17 .f32 := broadcastInDim S8x32x17 ![] bcast_S_S8x32x17 main_cst_4
  let main_v16 : IVec S8x32x17 1 := cmpf .olt main_v14 main_v15
  fn_part1 (F := F) main_arg2 main_arg4 main_arg5 main_v13 main_v16
-- ==== Kernel.lean ====
abbrev S8x32768x16 : Shape := ⟨3, ![8, 32768, 16]⟩
abbrev S8x32x16 : Shape := ⟨3, ![8, 32, 16]⟩
abbrev S8x32x17 : Shape := ⟨3, ![8, 32, 17]⟩
abbrev S2x8 : Shape := ⟨2, ![2, 8]⟩
abbrev S2 : Shape := ⟨1, ![2]⟩
abbrev S32768x2 : Shape := ⟨2, ![32768, 2]⟩
abbrev S8x1024x16 : Shape := ⟨3, ![8, 1024, 16]⟩
abbrev S1024x2 : Shape := ⟨2, ![1024, 2]⟩
abbrev S1x1024x16 : Shape := ⟨3, ![1, 1024, 16]⟩
abbrev S1024x16 : Shape := ⟨2, ![1024, 16]⟩
abbrev S1x32x16 : Shape := ⟨3, ![1, 32, 16]⟩
abbrev S32x16 : Shape := ⟨2, ![32, 16]⟩
abbrev S1x32x17 : Shape := ⟨3, ![1, 32, 17]⟩
abbrev S32x17 : Shape := ⟨2, ![32, 17]⟩
abbrev S1024x1x16 : Shape := ⟨3, ![1024, 1, 16]⟩
abbrev S1024x32x16 : Shape := ⟨3, ![1024, 32, 16]⟩
abbrev S1024x32 : Shape := ⟨2, ![1024, 32]⟩
abbrev S1024 : Shape := ⟨1, ![1024]⟩
abbrev S1024x1 : Shape := ⟨2, ![1024, 1]⟩
abbrev S32x1 : Shape := ⟨2, ![32, 1]⟩
abbrev S32 : Shape := ⟨1, ![32]⟩
abbrev S1x32 : Shape := ⟨2, ![1, 32]⟩
abbrev S16x32 : Shape := ⟨2, ![16, 32]⟩
abbrev S2x1 : Shape := ⟨2, ![2, 1]⟩
abbrev S1x2 : Shape := ⟨2, ![1, 2]⟩

abbrev nBuf : Space → Nat
  | .hbm => 7
  | .vmem => 9
  | .smem => 0
  | _ => 0

abbrev bufTy : (tb : Table) → Fin (tcTables nBuf tb) → BufTy
  | .hbm, ⟨0, _⟩ => ⟨S8x32768x16, .f32⟩
  | .hbm, ⟨1, _⟩ => ⟨S8x32x16, .f32⟩
  | .hbm, ⟨2, _⟩ => ⟨S8x32x16, .f32⟩
  | .hbm, ⟨3, _⟩ => ⟨S8x32x17, .f32⟩
  | .hbm, ⟨4, _⟩ => ⟨S2x8, .f32⟩
  | .hbm, ⟨5, _⟩ => ⟨S2, .f32⟩
  | .hbm, ⟨6, _⟩ => ⟨S32768x2, .f32⟩
  | .local _ .vmem, ⟨0, _⟩ => ⟨S8x1024x16, .f32⟩
  | .local _ .vmem, ⟨1, _⟩ => ⟨S8x1024x16, .f32⟩
  | .local _ .vmem, ⟨2, _⟩ => ⟨S8x32x16, .f32⟩
  | .local _ .vmem, ⟨3, _⟩ => ⟨S8x32x16, .f32⟩
  | .local _ .vmem, ⟨4, _⟩ => ⟨S8x32x17, .f32⟩
  | .local _ .vmem, ⟨5, _⟩ => ⟨S2x8, .f32⟩
  | .local _ .vmem, ⟨6, _⟩ => ⟨S2, .f32⟩
  | .local _ .vmem, ⟨7, _⟩ => ⟨S1024x2, .f32⟩
  | .local _ .vmem, ⟨8, _⟩ => ⟨S1024x2, .f32⟩
  | _, _ => ⟨S8x32768x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x32x17 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S2x8_S2x8_0_0 : ∀ a, (![0, 0] : Fin 2 → Nat) a + S2x8.size a ≤ S2x8.size a
  h_S2x8 : 0 < S2x8.numel
  inb_S2_S2_0 : ∀ a, (![0] : Fin 1 → Nat) a + S2.size a ≤ S2.size a
  h_S2 : 0 < S2.numel
  inb_S8x1024x16_S1x1024x16_0_0_0 : ∀ a, (![0, 0, 0] : Fin 3 → Nat) a + S1x1024x16.size a ≤ S8x1024x16.size a
  h_S1x1024x16 : 0 < S1x1024x16.numel
  shapeCasts_S1x1024x16_S1024x16 : S1x1024x16.ShapeCasts S1024x16
  inb_S8x32x16_S1x32x16_0_0_0 : ∀ a, (![0, 0, 0] : Fin 3 → Nat) a + S1x32x16.size a ≤ S8x32x16.size a
  h_S1x32x16 : 0 < S1x32x16.numel
  shapeCasts_S1x32x16_S32x16 : S1x32x16.ShapeCasts S32x16
  inb_S8x32x17_S1x32x17_0_0_0 : ∀ a, (![0, 0, 0] : Fin 3 → Nat) a + S1x32x17.size a ≤ S8x32x17.size a
  h_S1x32x17 : 0 < S1x32x17.numel
  shapeCasts_S1x32x17_S32x17 : S1x32x17.ShapeCasts S32x17
  shapeCasts_S1024x16_S1024x1x16 : S1024x16.ShapeCasts S1024x1x16
  shapeCasts_S32x16_S1x32x16 : S32x16.ShapeCasts S1x32x16
  broadcasts_S1024x1x16_S1024x32x16 : S1024x1x16.Broadcasts S1024x32x16
  broadcasts_S1x32x16_S1024x32x16 : S1x32x16.Broadcasts S1024x32x16
  reduces_S1024x32x16_S1024x32 : S1024x32x16.Reduces [2] S1024x32
  reduces_S1024x32_S1024 : S1024x32.Reduces [1] S1024
  shapeCasts_S1024_S1024x1 : S1024.ShapeCasts S1024x1
  broadcasts_S1024x1_S1024x32 : S1024x1.Broadcasts S1024x32
  slices_S32x17_o0_0_S32x16 : S32x17.Slices ![0, 0] S32x16
  slices_S32x17_o0_16_S32x1 : S32x17.Slices ![0, 16] S32x1
  shapeCasts_S32x1_S32 : S32x1.ShapeCasts S32
  shapeCasts_S32_S1x32 : S32.ShapeCasts S1x32
  transposes_S32x16_p1_0_S16x32 : S32x16.Transposes [1, 0] S16x32
  broadcasts_S1x32_S1024x32 : S1x32.Broadcasts S1024x32
  slices_S2x8_o0_0_S2x1 : S2x8.Slices ![0, 0] S2x1
  shapeCasts_S2x1_S2 : S2x1.ShapeCasts S2
  shapeCasts_S2_S1x2 : S2.ShapeCasts S1x2
  broadcasts_S1024x1_S1024x2 : S1024x1.Broadcasts S1024x2
  broadcasts_S1x2_S1024x2 : S1x2.Broadcasts S1024x2
  inb_S8x1024x16_S1x1024x16_1_0_0 : ∀ a, (![1, 0, 0] : Fin 3 → Nat) a + S1x1024x16.size a ≤ S8x1024x16.size a
  inb_S8x32x16_S1x32x16_1_0_0 : ∀ a, (![1, 0, 0] : Fin 3 → Nat) a + S1x32x16.size a ≤ S8x32x16.size a
  inb_S8x32x17_S1x32x17_1_0_0 : ∀ a, (![1, 0, 0] : Fin 3 → Nat) a + S1x32x17.size a ≤ S8x32x17.size a
  slices_S2x8_o0_1_S2x1 : S2x8.Slices ![0, 1] S2x1
  inb_S8x1024x16_S1x1024x16_2_0_0 : ∀ a, (![2, 0, 0] : Fin 3 → Nat) a + S1x1024x16.size a ≤ S8x1024x16.size a
  inb_S8x32x16_S1x32x16_2_0_0 : ∀ a, (![2, 0, 0] : Fin 3 → Nat) a + S1x32x16.size a ≤ S8x32x16.size a
  inb_S8x32x17_S1x32x17_2_0_0 : ∀ a, (![2, 0, 0] : Fin 3 → Nat) a + S1x32x17.size a ≤ S8x32x17.size a
  slices_S2x8_o0_2_S2x1 : S2x8.Slices ![0, 2] S2x1
  inb_S8x1024x16_S1x1024x16_3_0_0 : ∀ a, (![3, 0, 0] : Fin 3 → Nat) a + S1x1024x16.size a ≤ S8x1024x16.size a
  inb_S8x32x16_S1x32x16_3_0_0 : ∀ a, (![3, 0, 0] : Fin 3 → Nat) a + S1x32x16.size a ≤ S8x32x16.size a
  inb_S8x32x17_S1x32x17_3_0_0 : ∀ a, (![3, 0, 0] : Fin 3 → Nat) a + S1x32x17.size a ≤ S8x32x17.size a
  slices_S2x8_o0_3_S2x1 : S2x8.Slices ![0, 3] S2x1
  inb_S8x1024x16_S1x1024x16_4_0_0 : ∀ a, (![4, 0, 0] : Fin 3 → Nat) a + S1x1024x16.size a ≤ S8x1024x16.size a
  inb_S8x32x16_S1x32x16_4_0_0 : ∀ a, (![4, 0, 0] : Fin 3 → Nat) a + S1x32x16.size a ≤ S8x32x16.size a
  inb_S8x32x17_S1x32x17_4_0_0 : ∀ a, (![4, 0, 0] : Fin 3 → Nat) a + S1x32x17.size a ≤ S8x32x17.size a
  slices_S2x8_o0_4_S2x1 : S2x8.Slices ![0, 4] S2x1
  inb_S8x1024x16_S1x1024x16_5_0_0 : ∀ a, (![5, 0, 0] : Fin 3 → Nat) a + S1x1024x16.size a ≤ S8x1024x16.size a
  inb_S8x32x16_S1x32x16_5_0_0 : ∀ a, (![5, 0, 0] : Fin 3 → Nat) a + S1x32x16.size a ≤ S8x32x16.size a
  inb_S8x32x17_S1x32x17_5_0_0 : ∀ a, (![5, 0, 0] : Fin 3 → Nat) a + S1x32x17.size a ≤ S8x32x17.size a
  slices_S2x8_o0_5_S2x1 : S2x8.Slices ![0, 5] S2x1
  inb_S8x1024x16_S1x1024x16_6_0_0 : ∀ a, (![6, 0, 0] : Fin 3 → Nat) a + S1x1024x16.size a ≤ S8x1024x16.size a
  inb_S8x32x16_S1x32x16_6_0_0 : ∀ a, (![6, 0, 0] : Fin 3 → Nat) a + S1x32x16.size a ≤ S8x32x16.size a
  inb_S8x32x17_S1x32x17_6_0_0 : ∀ a, (![6, 0, 0] : Fin 3 → Nat) a + S1x32x17.size a ≤ S8x32x17.size a
  slices_S2x8_o0_6_S2x1 : S2x8.Slices ![0, 6] S2x1
  inb_S8x1024x16_S1x1024x16_7_0_0 : ∀ a, (![7, 0, 0] : Fin 3 → Nat) a + S1x1024x16.size a ≤ S8x1024x16.size a
  inb_S8x32x16_S1x32x16_7_0_0 : ∀ a, (![7, 0, 0] : Fin 3 → Nat) a + S1x32x16.size a ≤ S8x32x16.size a
  inb_S8x32x17_S1x32x17_7_0_0 : ∀ a, (![7, 0, 0] : Fin 3 → Nat) a + S1x32x17.size a ≤ S8x32x17.size a
  slices_S2x8_o0_7_S2x1 : S2x8.Slices ![0, 7] S2x1
  reduces_S1024x2_S1024 : S1024x2.Reduces [1] S1024
  inb_S1024x2_S1024x2_0_0 : ∀ a, (![0, 0] : Fin 2 → Nat) a + S1024x2.size a ≤ S1024x2.size a
  h_S1024x2 : 0 < S1024x2.numel
  dot_S1024x16_S16x32_S1024x32_1_0_0_1_n_n_wf : DotDims.WF S1024x16 S16x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x16.size a ≤ S8x32768x16.size a
  hwx0_0 : ∀ i : grid0.Coords, EltTy.bits .f32 = 32 ∨ (Rect.block (s := S8x32768x16) S8x1024x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x32x16.size a ≤ S8x32x16.size a
  hwx0_1 : ∀ i : grid0.Coords, EltTy.bits .f32 = 32 ∨ (Rect.block (s := S8x32x16) S8x32x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x32x16.size a ≤ S8x32x16.size a
  hwx0_2 : ∀ i : grid0.Coords, EltTy.bits .f32 = 32 ∨ (Rect.block (s := S8x32x16) S8x32x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x32x17.size a ≤ S8x32x17.size a
  hwx0_3 : ∀ i : grid0.Coords, EltTy.bits .f32 = 32 ∨ (Rect.block (s := S8x32x17) S8x32x17.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x8.size a ≤ S2x8.size a
  hwx0_4 : ∀ i : grid0.Coords, EltTy.bits .f32 = 32 ∨ (Rect.block (s := S2x8) S2x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2.size a ≤ S2.size a
  hwx0_5 : ∀ i : grid0.Coords, EltTy.bits .f32 = 32 ∨ (Rect.block (s := S2) S2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x2.size a ≤ S32768x2.size a
  hwx0_6 : ∀ i : grid0.Coords, EltTy.bits .f32 = 32 ∨ (Rect.block (s := S32768x2) S1024x2.size (cc0_transform_6 i) (hinb0_6 i)).WholeWords (EltTy.packing .f32)

variable [Facts₀]

def dot_S1024x16_S16x32_S1024x32_1_0_0_1_n_n : DotDims S1024x16 S16x32 S1024x32 where
  lhsContracting := [1]
  rhsContracting := [0]
  lhsNonContracting := [0]
  rhsNonContracting := [1]
  lhsBatch := []
  rhsBatch := []
  wf := dot_S1024x16_S16x32_S1024x32_1_0_0_1_n_n_wf

abbrev win0_0 : Pipeline.Window sig grid0 :=
  Pipeline.Window.ofSpec (Memref.whole main_arg0) S8x1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x32x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x32x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x32x17.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x32768x16 : Shape := ⟨3, ![8, 32768, 16]⟩
abbrev S8x32x16 : Shape := ⟨3, ![8, 32, 16]⟩
abbrev S8x32x17 : Shape := ⟨3, ![8, 32, 17]⟩
abbrev S2x8 : Shape := ⟨2, ![2, 8]⟩
abbrev S2 : Shape := ⟨1, ![2]⟩
abbrev S8x32768x1x16 : Shape := ⟨4, ![8, 32768, 1, 16]⟩
abbrev S8x1x32x16 : Shape := ⟨4, ![8, 1, 32, 16]⟩
abbrev S8x32768x32x16 : Shape := ⟨4, ![8, 32768, 32, 16]⟩
abbrev S_ : Shape := ⟨0, ![]⟩
abbrev S8x32768x32 : Shape := ⟨3, ![8, 32768, 32]⟩
abbrev S8x32768 : Shape := ⟨2, ![8, 32768]⟩
abbrev S8x32768x1 : Shape := ⟨3, ![8, 32768, 1]⟩
abbrev S8x32x1 : Shape := ⟨3, ![8, 32, 1]⟩
abbrev S8x32 : Shape := ⟨2, ![8, 32]⟩
abbrev S8x1x32 : Shape := ⟨3, ![8, 1, 32]⟩
abbrev S32768x2 : Shape := ⟨2, ![32768, 2]⟩
abbrev S1x2 : Shape := ⟨2, ![1, 2]⟩
abbrev S32768 : Shape := ⟨1, ![32768]⟩
abbrev S32768x1 : Shape := ⟨2, ![32768, 1]⟩

abbrev nBuf : Space → Nat
  | .hbm => 56
  | .vmem => 0
  | .smem => 0
  | _ => 0

abbrev bufTy : (tb : Table) → Fin (tcTables nBuf tb) → BufTy
  | .hbm, ⟨0, _⟩ => ⟨S8x32768x16, .f32⟩
  | .hbm, ⟨1, _⟩ => ⟨S8x32x16, .f32⟩
  | .hbm, ⟨2, _⟩ => ⟨S8x32x16, .f32⟩
  | .hbm, ⟨3, _⟩ => ⟨S8x32x17, .f32⟩
  | .hbm, ⟨4, _⟩ => ⟨S2x8, .f32⟩
  | .hbm, ⟨5, _⟩ => ⟨S2, .f32⟩
  | .hbm, ⟨6, _⟩ => ⟨S8x32768x1x16, .f32⟩
  | .hbm, ⟨7, _⟩ => ⟨S8x1x32x16, .f32⟩
  | .hbm, ⟨8, _⟩ => ⟨S8x32768x32x16, .f32⟩
  | .hbm, ⟨9, _⟩ => ⟨S8x32768x32x16, .f32⟩
  | .hbm, ⟨10, _⟩ => ⟨S8x32768x32x16, .f32⟩
  | .hbm, ⟨11, _⟩ => ⟨S8x32768x32x16, .f32⟩
  | .hbm, ⟨12, _⟩ => ⟨S_, .f32⟩
  | .hbm, ⟨13, _⟩ => ⟨S8x32x16, .f32⟩
  | .hbm, ⟨14, _⟩ => ⟨S8x32x16, .f32⟩
  | .hbm, ⟨15, _⟩ => ⟨S8x32x16, .f32⟩
  | .hbm, ⟨16, _⟩ => ⟨S8x1x32x16, .f32⟩
  | .hbm, ⟨17, _⟩ => ⟨S8x32768x32x16, .f32⟩
  | .hbm, ⟨18, _⟩ => ⟨S8x32768x32x16, .f32⟩
  | .hbm, ⟨19, _⟩ => ⟨S_, .f32⟩
  | .hbm, ⟨20, _⟩ => ⟨S8x32768x32, .f32⟩
  | .hbm, ⟨21, _⟩ => ⟨S8x32768x32, .f32⟩
  | .hbm, ⟨22, _⟩ => ⟨S8x32768x32, .f32⟩
  | .hbm, ⟨23, _⟩ => ⟨S_, .f32⟩
  | .hbm, ⟨24, _⟩ => ⟨S8x32768, .f32⟩
  | .hbm, ⟨25, _⟩ => ⟨S8x32768x1, .f32⟩
  | .hbm, ⟨26, _⟩ => ⟨S8x32768x32, .f32⟩
  | .hbm, ⟨27, _⟩ => ⟨S8x32768x32, .f32⟩
  | .hbm, ⟨28, _⟩ => ⟨S8x32x1, .f32⟩
  | .hbm, ⟨29, _⟩ => ⟨S8x32, .f32⟩
  | .hbm, ⟨30, _⟩ => ⟨S8x1x32, .f32⟩
  | .hbm, ⟨31, _⟩ => ⟨S8x32x16, .f32⟩
  | .hbm, ⟨32, _⟩ => ⟨S8x32768x32, .f32⟩
  | .hbm, ⟨33, _⟩ => ⟨S8x32768x32, .f32⟩
  | .hbm, ⟨34, _⟩ => ⟨S8x32768x32, .f32⟩
  | .hbm, ⟨35, _⟩ => ⟨S8x32768x32, .f32⟩
  | .hbm, ⟨36, _⟩ => ⟨S_, .f32⟩
  | .hbm, ⟨37, _⟩ => ⟨S8x32768, .f32⟩
  | .hbm, ⟨38, _⟩ => ⟨S32768x2, .f32⟩
  | .hbm, ⟨39, _⟩ => ⟨S1x2, .f32⟩
  | .hbm, ⟨40, _⟩ => ⟨S32768x2, .f32⟩
  | .hbm, ⟨41, _⟩ => ⟨S32768x2, .f32⟩
  | .hbm, ⟨42, _⟩ => ⟨S_, .f32⟩
  | .hbm, ⟨43, _⟩ => ⟨S32768, .f32⟩
  | .hbm, ⟨44, _⟩ => ⟨S_, .f32⟩
  | .hbm, ⟨45, _⟩ => ⟨S32768, .f32⟩
  | .hbm, ⟨46, _⟩ => ⟨S32768, .f32⟩
  | .hbm, ⟨47, _⟩ => ⟨S32768x1, .f32⟩
  | .hbm, ⟨48, _⟩ => ⟨S32768x2, .f32⟩
  | .hbm, ⟨49, _⟩ => ⟨S32768x2, .f32⟩
  | .hbm, ⟨50, _⟩ => ⟨S32768x2, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S32768x2, .f32⟩
  | .hbm, ⟨55, _⟩ => ⟨S32768x2, .f32⟩
  | _, _ => ⟨S8x32768x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  bcast_S8x32768x16_S8x32768x1x16_0_1_3 : S8x32768x16.BroadcastsInDim S8x32768x1x16 (![0, 1, 3] : Fin 3 → Fin S8x32768x1x16.rank)
  bcast_S8x32x16_S8x1x32x16_0_2_3 : S8x32x16.BroadcastsInDim S8x1x32x16 (![0, 2, 3] : Fin 3 → Fin S8x1x32x16.rank)
  bcast_S8x32768x1x16_S8x32768x32x16_0_1_2_3 : S8x32768x1x16.BroadcastsInDim S8x32768x32x16 (![0, 1, 2, 3] : Fin 4 → Fin S8x32768x32x16.rank)
  bcast_S8x1x32x16_S8x32768x32x16_0_1_2_3 : S8x1x32x16.BroadcastsInDim S8x32768x32x16 (![0, 1, 2, 3] : Fin 4 → Fin S8x32768x32x16.rank)
  bcast_S_S8x32x16 : S_.BroadcastsInDim S8x32x16 (![] : Fin 0 → Fin S8x32x16.rank)
  reducesTo_S8x32768x32x16_S8x32768x32_d3 : S8x32768x32x16.ReducesTo [3] S8x32768x32
  h_S_ : 0 < S_.numel
  reducesTo_S8x32768x32_S8x32768_d2 : S8x32768x32.ReducesTo [2] S8x32768
  bcast_S8x32768_S8x32768x1_0_1 : S8x32768.BroadcastsInDim S8x32768x1 (![0, 1] : Fin 2 → Fin S8x32768x1.rank)
  bcast_S8x32768x1_S8x32768x32_0_1_2 : S8x32768x1.BroadcastsInDim S8x32768x32 (![0, 1, 2] : Fin 3 → Fin S8x32768x32.rank)
  slices_S8x32x17_S8x32x1_0_0_16 : S8x32x17.Slices ![0, 0, 16] S8x32x1
  shapeCasts_S8x32x1_S8x32 : S8x32x1.ShapeCasts S8x32
  bcast_S8x32_S8x1x32_0_2 : S8x32.BroadcastsInDim S8x1x32 (![0, 2] : Fin 2 → Fin S8x1x32.rank)
  slices_S8x32x17_S8x32x16_0_0_0 : S8x32x17.Slices ![0, 0, 0] S8x32x16
  bcast_S8x1x32_S8x32768x32_0_1_2 : S8x1x32.BroadcastsInDim S8x32768x32 (![0, 1, 2] : Fin 3 → Fin S8x32768x32.rank)
  bcast_S2_S1x2_1 : S2.BroadcastsInDim S1x2 (![1] : Fin 1 → Fin S1x2.rank)
  bcast_S1x2_S32768x2_0_1 : S1x2.BroadcastsInDim S32768x2 (![0, 1] : Fin 2 → Fin S32768x2.rank)
  reducesTo_S32768x2_S32768_d1 : S32768x2.ReducesTo [1] S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x2_0_1 : S32768x1.BroadcastsInDim S32768x2 (![0, 1] : Fin 2 → Fin S32768x2.rank)
  dot_S8x32768x16_S8x32x16_S8x32768x32_2_2_1_1_0_0_wf : DotDims.WF S8x32768x16 S8x32x16 S8x32768x32 [2] [2] [1] [1] [0] [0]
  dot_S8x32768_S2x8_S32768x2_0_1_1_0_n_n_wf : DotDims.WF S8x32768 S2x8 S32768x2 [0] [1] [1] [0] [] []

variable [Facts₀]

def dot_S8x32768x16_S8x32x16_S8x32768x32_2_2_1_1_0_0 : DotDims S8x32768x16 S8x32x16 S8x32768x32 where
  lhsContracting := [2]
  rhsContracting := [2]
  lhsNonContracting := [1]
  rhsNonContracting := [1]
  lhsBatch := [0]
  rhsBatch := [0]
  wf := dot_S8x32768x16_S8x32x16_S8x32768x32_2_2_1_1_0_0_wf
def dot_S8x32768_S2x8_S32768x2_0_1_1_0_n_n : DotDims S8x32768 S2x8 S32768x2 where
  lhsContracting := [0]
  rhsContracting := [1]
  lhsNonContracting := [1]
  rhsNonContracting := [0]
  lhsBatch := []
  rhsBatch := []
  wf := dot_S8x32768_S2x8_S32768x2_0_1_1_0_n_n_wf

class Facts : Prop extends Facts₀ where

variable [Facts]
-- ==== Proof.Branch.lean ====
/-
  The kernel body restated as a few functions of whole vectors, applied once per branch.

  The body loads, for each of the eight branches, one slab of rows, centres, widths and consequent weights,
  computes that branch's output for every row (`branch`), adds it times the branch's column of the mixing
  matrix onto an accumulator that starts at zero (`mix`), then adds the bias and takes the row softmax
  (`finish`). `out_eq` says the block the body stores is exactly that composition of the loaded slabs:
  both sides are the same tree of vector operations, so the equation holds by unfolding.
-/
import proofs.«104609_j70042326663683_2_alg».proof.Proof.Gen.KernelIdeal.Frame

noncomputable section

namespace Cert.Body

open Cert.KernelIdeal Cert.KernelIdeal.Gen Idealize.ShloMosaic Idealize.SL.Sem

variable {F : FTy → Type} [FloatOps F]

/-- The squared difference of every row `x` from every centre `mu`, feature by feature. -/
def sq (x : FVec F S1024x16 .f32) (mu : FVec F S32x16 .f32) : FVec F S1024x32x16 .f32 :=
  have v15 : FVec F S1024x32x16 .f32 := subf
    (broadcastTo S1024x32x16 (shapeCast S1024x1x16 x shapeCasts_S1024x16_S1024x1x16) broadcasts_S1024x1x16_S1024x32x16)
    (broadcastTo S1024x32x16 (shapeCast S1x32x16 mu shapeCasts_S32x16_S1x32x16) broadcasts_S1x32x16_S1024x32x16)
  mulf v15 v15

/-- The reciprocal `1 / (2 σ σ)` of every width. -/
def recip (sg : FVec F S32x16 .f32) : FVec F S32x16 .f32 :=
  divf (broadcast S32x16 (Scalar.ofBits .f32 0x3F800000#32))
    (mulf (mulf (broadcast S32x16 (Scalar.ofBits .f32 0x40000000#32)) sg) sg)

/-- The exponent of every rule on every row: the squared differences times the reciprocals, summed over the features. -/
def expon (x : FVec F S1024x16 .f32) (mu sg : FVec F S32x16 .f32) : FVec F S1024x32 .f32 :=
  multiReduction .add [2] S1024x32
    (mulf (sq x mu) (broadcastTo S1024x32x16 (shapeCast S1x32x16 (recip sg) shapeCasts_S32x16_S1x32x16) broadcasts_S1x32x16_S1024x32x16))
    0x00000000#32 reduces_S1024x32x16_S1024x32 (.inl rfl) rfl

/-- The firing strength of every rule on every row. -/
def fire (x : FVec F S1024x16 .f32) (mu sg : FVec F S32x16 .f32) : FVec F S1024x32 .f32 :=
  exp (subf (broadcast S1024x32 (Scalar.ofBits .f32 0x00000000#32)) (expon x mu sg))

/-- Every row's sum over the thirty-two rules, spread back along the row. -/
def rowTotal (v : FVec F S1024x32 .f32) : FVec F S1024x32 .f32 :=
  broadcastTo S1024x32
    (shapeCast S1024x1 (multiReduction .add [1] S1024 v 0x00000000#32 reduces_S1024x32_S1024 (.inl rfl) rfl) shapeCasts_S1024_S1024x1)
    broadcasts_S1024x1_S1024x32

/-- The normalised firing strengths. -/
def strengths (x : FVec F S1024x16 .f32) (mu sg : FVec F S32x16 .f32) : FVec F S1024x32 .f32 :=
  have v28 : FVec F S1024x32 .f32 := fire x mu sg
  divf v28 (rowTotal v28)

/-- Every rule's consequent on every row: its bias (column 16 of `w3`) plus the row times its sixteen weights. -/
def consequents (x : FVec F S1024x16 .f32) (w3 : FVec F S32x17 .f32) : FVec F S1024x32 .f32 :=
  have v33 : FVec F S32x16 .f32 := extractStridedSlice S32x16 ![0, 0] w3 slices_S32x17_o0_0_S32x16
  have v34 : FVec F S32x1 .f32 := extractStridedSlice S32x1 ![0, 16] w3 slices_S32x17_o0_16_S32x1
  have v36 : FVec F S1x32 .f32 := shapeCast S1x32 (shapeCast S32 v34 shapeCasts_S32x1_S32) shapeCasts_S32_S1x32
  have v37 : FVec F S16x32 .f32 := transpose S16x32 [1, 0] v33 transposes_S32x16_p1_0_S16x32
  addf (broadcastTo S1024x32 v36 broadcasts_S1x32_S1024x32)
    (matmul dot_S1024x16_S16x32_S1024x32_1_0_0_1_n_n none x v37 (constant S1024x32 .f32 0x00000000#32))

/-- The branch's output on each row: the consequents weighted by the normalised strengths `nrm`, summed over the rules. -/
def weighted (x : FVec F S1024x16 .f32) (nrm : FVec F S1024x32 .f32) (w3 : FVec F S32x17 .f32) : FVec F S1024 .f32 :=
  multiReduction .add [1] S1024 (mulf nrm (consequents x w3)) 0x00000000#32 reduces_S1024x32_S1024 (.inl rfl) rfl

/-- One branch from its four loaded slabs. -/
def branch (X : Vec F S1x1024x16 .f32) (M S : Vec F S1x32x16 .f32) (W : Vec F S1x32x17 .f32) : FVec F S1024 .f32 :=
  weighted (shapeCast S1024x16 X shapeCasts_S1x1024x16_S1024x16)
    (strengths (shapeCast S1024x16 X shapeCasts_S1x1024x16_S1024x16) (shapeCast S32x16 M shapeCasts_S1x32x16_S32x16)
      (shapeCast S32x16 S shapeCasts_S1x32x16_S32x16))
    (shapeCast S32x17 W shapeCasts_S1x32x17_S32x17)

/-- The accumulator plus a branch's output `t` times that branch's column `wk` of the mixing matrix. -/
def mix (acc : FVec F S1024x2 .f32) (t : FVec F S1024 .f32) (wk : FVec F S2x1 .f32) : FVec F S1024x2 .f32 :=
  addf acc (mulf
    (broadcastTo S1024x2 (shapeCast S1024x1 t shapeCasts_S1024_S1024x1) broadcasts_S1024x1_S1024x2)
    (broadcastTo S1024x2 (shapeCast S1x2 (shapeCast S2 wk shapeCasts_S2x1_S2) shapeCasts_S2_S1x2) broadcasts_S1x2_S1024x2))

/-- A vector over the rows spread along each row of two. -/
def spread (v : FVec F S1024 .f32) : FVec F S1024x2 .f32 :=
  broadcastTo S1024x2 (shapeCast S1024x1 v shapeCasts_S1024_S1024x1) broadcasts_S1024x1_S1024x2

/-- The softmax over each row's two entries, shifted by the row maximum. -/
def softmaxRows (z : FVec F S1024x2 .f32) : FVec F S1024x2 .f32 :=
  have v390 : FVec F S1024 .f32 := multiReduction .maximumf [1] S1024 z 0xFF800000#32 reduces_S1024x2_S1024 (.inl rfl) rfl
  have v392 : FVec F S1024 .f32 := maximumf (broadcast S1024 (Scalar.ofBits .f32 0xFF800000#32)) v390
  have v396 : FVec F S1024x2 .f32 := exp (subf z (spread v392))
  divf v396 (spread (multiReduction .add [1] S1024 v396 0x00000000#32 reduces_S1024x2_S1024 (.inl rfl) rfl))

/-- The bias added and the softmax taken. -/
def finish (b5 : Vec F S2 .f32) (acc : FVec F S1024x2 .f32) : FVec F S1024x2 .f32 :=
  softmaxRows (addf acc (broadcastTo S1024x2 (shapeCast S1x2 b5 shapeCasts_S2_S1x2) broadcasts_S1x2_S1024x2))

/-- The accumulator after all eight branches, from the loaded mixing matrix `w5` and the eight branch outputs. -/
def mixed (w5 : Vec F S2x8 .f32) (t0 t1 t2 t3 t4 t5 t6 t7 : FVec F S1024 .f32) : FVec F S1024x2 .f32 :=
  mix (mix (mix (mix (mix (mix (mix (mix (broadcast S1024x2 (Scalar.ofBits .f32 0x00000000#32))
    t0 (extractStridedSlice S2x1 ![0, 0] w5 slices_S2x8_o0_0_S2x1))
    t1 (extractStridedSlice S2x1 ![0, 1] w5 slices_S2x8_o0_1_S2x1))
    t2 (extractStridedSlice S2x1 ![0, 2] w5 slices_S2x8_o0_2_S2x1))
    t3 (extractStridedSlice S2x1 ![0, 3] w5 slices_S2x8_o0_3_S2x1))
    t4 (extractStridedSlice S2x1 ![0, 4] w5 slices_S2x8_o0_4_S2x1))
    t5 (extractStridedSlice S2x1 ![0, 5] w5 slices_S2x8_o0_5_S2x1))
    t6 (extractStridedSlice S2x1 ![0, 6] w5 slices_S2x8_o0_6_S2x1))
    t7 (extractStridedSlice S2x1 ![0, 7] w5 slices_S2x8_o0_7_S2x1)

/-- What the body stores, as that composition of the slabs it loads. -/
def stored (x0 : Vec F S8x1024x16 .f32) (x1 x2 : Vec F S8x32x16 .f32) (x3 : Vec F S8x32x17 .f32) (x4 : Vec F S2x8 .f32)
    (x5 : Vec F S2 .f32) : FVec F S1024x2 .f32 :=
  finish (View.ld x5 r0_1) (mixed (View.ld x4 r0_0)
    (branch (View.ld x0 r0_2) (View.ld x1 r0_3) (View.ld x2 r0_3) (View.ld x3 r0_4))
    (branch (View.ld x0 r0_5) (View.ld x1 r0_6) (View.ld x2 r0_6) (View.ld x3 r0_7))
    (branch (View.ld x0 r0_8) (View.ld x1 r0_9) (View.ld x2 r0_9) (View.ld x3 r0_10))
    (branch (View.ld x0 r0_11) (View.ld x1 r0_12) (View.ld x2 r0_12) (View.ld x3 r0_13))
    (branch (View.ld x0 r0_14) (View.ld x1 r0_15) (View.ld x2 r0_15) (View.ld x3 r0_16))
    (branch (View.ld x0 r0_17) (View.ld x1 r0_18) (View.ld x2 r0_18) (View.ld x3 r0_19))
    (branch (View.ld x0 r0_20) (View.ld x1 r0_21) (View.ld x2 r0_21) (View.ld x3 r0_22))
    (branch (View.ld x0 r0_23) (View.ld x1 r0_24) (View.ld x2 r0_24) (View.ld x3 r0_25)))

theorem out_eq (x0 : Vec F S8x1024x16 .f32) (x1 x2 : Vec F S8x32x16 .f32) (x3 : Vec F S8x32x17 .f32) (x4 : Vec F S2x8 .f32)
    (x5 : Vec F S2 .f32) :
    out0_6 x0 x1 x2 x3 x4 x5 = View.canon [⟨r0_26, stored x0 x1 x2 x3 x4 x5⟩] := rfl

end Cert.Body

end
-- ==== Proof.Spec.lean ====
/-
  A Gaussian fuzzy-rule classifier on the extended reals, and the one law its two arrangements differ by.

  Eight branches each see a row `x` of sixteen features. In a branch, rule `r` (of thirty-two) fires with strength
  `exp (-(Σ_f (x f - μ r f)² / (2 σ r f²)))`; the strengths are normalised by their sum; each rule's consequent is
  the affine form `w r 16 + Σ_f x f · w r f`; the branch's output is the normalised-strength-weighted sum of the
  consequents. The eight outputs are mixed by a `2 × 8` matrix, a bias is added, and the two logits go through a
  softmax (shifted by the row maximum).

  One arrangement divides each squared distance by `2σ²`; the other multiplies it by the reciprocal `1 / (2σ²)`.
  On the extended reals a quotient by a NONZERO `d` is the product with `d⁻¹`, so the two agree wherever no
  width `σ` is zero (`mul_recip`); at `σ = 0` they differ (`0 · (1/0) = 0` but `0 / 0` is the bottom element).
  The other differences are a sum taken term by term from zero against the same finite sum (`chain8`), and
  `0 - e` against `-e`.
-/
import Idealize.ShloMosaic.PureOps.Ideal
import Idealize.ShloMosaic.PureOps.Ideal.Laws
import Idealize.ShloMosaic.PureOps.IdealRules
import Idealize.ShloMosaic.Lib.ValueIdx

noncomputable section

namespace Cert.Fuzzy

open Idealize.ShloMosaic
open scoped BigOperators

/-- The words of `2.0`, `1.0` and `-∞` as extended reals. -/
abbrev two : EReal := Ideal.ofBits .f32 0x40000000#32
abbrev one : EReal := Ideal.ofBits .f32 0x3F800000#32
abbrev ninf : EReal := Ideal.ofBits .f32 0xFF800000#32

theorem one_eq : one = 1 := IdealRules.sign_bit.ideal_onePat .f32

theorem two_ne : two ≠ 0 := by
  unfold two
  simp [Ideal.ofBits, Ideal.ieee]

/-- The scaled squared distance of a row from a rule's centre, each term a quotient by `2σ²`. -/
def expo (x mu sg : Fin 16 → EReal) : EReal :=
  ∑ f : Fin 16, Ideal.div ((x f - mu f) * (x f - mu f)) (two * sg f * sg f)

/-- The same with each term a product with the reciprocal of `2σ²`. -/
def expoRecip (x mu sg : Fin 16 → EReal) : EReal :=
  ∑ f : Fin 16, (x f - mu f) * (x f - mu f) * Ideal.div one (two * sg f * sg f)

/-- A quotient by a nonzero extended real is the product with the reciprocal taken first. -/
theorem mul_recip (a d : EReal) (hd : d ≠ 0) : a * Ideal.div one d = Ideal.div a d := by
  unfold Ideal.div
  rw [if_neg hd, if_neg hd, one_eq, one_mul]

theorem two_mul_sq_ne {s : EReal} (hs : s ≠ 0) : two * s * s ≠ 0 :=
  mul_ne_zero (mul_ne_zero two_ne hs) hs

theorem expoRecip_eq (x mu sg : Fin 16 → EReal) (hs : ∀ f, sg f ≠ 0) : expoRecip x mu sg = expo x mu sg :=
  Finset.sum_congr rfl fun f _ => mul_recip _ _ (two_mul_sq_ne (hs f))

/-- Rule `r`'s firing strength on the row. -/
def rule (x : Fin 16 → EReal) (mu sg : Fin 32 → Fin 16 → EReal) (r : Fin 32) : EReal :=
  Ideal.exp (-(expo x (mu r) (sg r)))

/-- Rule `r`'s consequent: its bias (column 16) plus the row's product with its sixteen weights. -/
def conq (x : Fin 16 → EReal) (w : Fin 32 → Fin 17 → EReal) (r : Fin 32) : EReal :=
  w r 16 + ∑ f : Fin 16, x f * w r f.castSucc

/-- A branch's output on the row: the consequents weighted by the normalised strengths. -/
def tsk (x : Fin 16 → EReal) (mu sg : Fin 32 → Fin 16 → EReal) (w : Fin 32 → Fin 17 → EReal) : EReal :=
  ∑ r : Fin 32, Ideal.div (rule x mu sg r) (∑ r' : Fin 32, rule x mu sg r') * conq x w r

/-- One logit: the eight branch outputs mixed by a row of the mixing matrix, plus the bias. -/
def logit (t w : Fin 8 → EReal) (b : EReal) : EReal := (∑ k : Fin 8, t k * w k) + b

/-- The two-way softmax of a pair of logits, shifted by their maximum. -/
def softmax2 (z : Fin 2 → EReal) (o : Fin 2) : EReal :=
  Ideal.div (Ideal.exp (z o - max ninf ((Finset.univ : Finset (Fin 2)).fold max ninf z)))
    (∑ k : Fin 2, Ideal.exp (z k - max ninf ((Finset.univ : Finset (Fin 2)).fold max ninf z)))

/-- The classifier at row `b`, logit `o`, over whole arrays: rows `d` `[8, 32768, 16]`, centres `mu` and widths `sg`
    `[8, 32, 16]`, consequent weights `w3` `[8, 32, 17]`, mixing matrix `w5` `[2, 8]`, bias `b5` `[2]`. -/
def classifyAt (d : (⟨3, ![8, 32768, 16]⟩ : Shape).Idx → EReal) (mu sg : (⟨3, ![8, 32, 16]⟩ : Shape).Idx → EReal)
    (w3 : (⟨3, ![8, 32, 17]⟩ : Shape).Idx → EReal) (w5 : (⟨2, ![2, 8]⟩ : Shape).Idx → EReal)
    (b5 : (⟨1, ![2]⟩ : Shape).Idx → EReal) (b : Fin 32768) (o : Fin 2) : EReal :=
  softmax2 (fun o' => logit
    (fun k => tsk (fun f => d (ValueIdx.ix3 k b f)) (fun r f => mu (ValueIdx.ix3 k r f)) (fun r f => sg (ValueIdx.ix3 k r f))
      (fun r j => w3 (ValueIdx.ix3 k r j)))
    (fun k => w5 (ValueIdx.ix2 o' k)) (b5 (ValueIdx.ix1 o'))) o

/-- The classifier's result array `[32768, 2]`. -/
def classify (d : (⟨3, ![8, 32768, 16]⟩ : Shape).Idx → EReal) (mu sg : (⟨3, ![8, 32, 16]⟩ : Shape).Idx → EReal)
    (w3 : (⟨3, ![8, 32, 17]⟩ : Shape).Idx → EReal) (w5 : (⟨2, ![2, 8]⟩ : Shape).Idx → EReal)
    (b5 : (⟨1, ![2]⟩ : Shape).Idx → EReal) : (⟨2, ![32768, 2]⟩ : Shape).Idx → EReal :=
  fun i => classifyAt d mu sg w3 w5 b5 (i 0) (i 1)

/-- Eight terms added one after the other onto zero are their finite sum. -/
theorem chain8 (a : Fin 8 → EReal) :
    0 + a 0 + a 1 + a 2 + a 3 + a 4 + a 5 + a 6 + a 7 = ∑ k : Fin 8, a k := by
  rw [Fin.sum_univ_eight, zero_add]

/-! ## The arrangement with reciprocals, a subtraction from zero, and a running sum -/

/-- The word of `0.0`. -/
abbrev zero : EReal := Ideal.ofBits .f32 0x00000000#32

theorem zero_eq : zero = 0 := Ideal.ofBits_zero_f32

/-- Rule `r`'s strength with the exponent's terms products with reciprocals and its sign taken by `0 - e`. -/
def ruleRecip (x : Fin 16 → EReal) (mu sg : Fin 32 → Fin 16 → EReal) (r : Fin 32) : EReal :=
  Ideal.exp (zero - expoRecip x (mu r) (sg r))

/-- The branch's output over those strengths. -/
def tskRecip (x : Fin 16 → EReal) (mu sg : Fin 32 → Fin 16 → EReal) (w : Fin 32 → Fin 17 → EReal) : EReal :=
  ∑ r : Fin 32, Ideal.div (ruleRecip x mu sg r) (∑ r' : Fin 32, ruleRecip x mu sg r') * conq x w r

theorem ruleRecip_eq (x : Fin 16 → EReal) (mu sg : Fin 32 → Fin 16 → EReal) (hs : ∀ r f, sg r f ≠ 0) (r : Fin 32) :
    ruleRecip x mu sg r = rule x mu sg r := by
  unfold ruleRecip rule
  rw [expoRecip_eq _ _ _ (hs r), zero_eq, zero_sub]

theorem tskRecip_eq (x : Fin 16 → EReal) (mu sg : Fin 32 → Fin 16 → EReal) (w : Fin 32 → Fin 17 → EReal)
    (hs : ∀ r f, sg r f ≠ 0) : tskRecip x mu sg w = tsk x mu sg w := by
  unfold tskRecip tsk
  simp only [ruleRecip_eq x mu sg hs]

/-- One logit with the eight products added one after the other onto zero. -/
def logitChain (t w : Fin 8 → EReal) (b : EReal) : EReal :=
  zero + t 0 * w 0 + t 1 * w 1 + t 2 * w 2 + t 3 * w 3 + t 4 * w 4 + t 5 * w 5 + t 6 * w 6 + t 7 * w 7 + b

theorem logitChain_eq (t w : Fin 8 → EReal) (b : EReal) : logitChain t w b = logit t w b := by
  unfold logitChain logit
  rw [zero_eq]
  exact congrArg (· + b) (chain8 fun k => t k * w k)

end Cert.Fuzzy

end
-- ==== Proof.LibLayout3.lean ====
/-
  Layout steps of a rank-3 broadcast-and-reduce, and row maxima, read at an index.

  A row `[a, b]` set beside thirty-two centres is first cast to `[a, 1, b]` and broadcast along the unit axis;
  the centres `[b, c]` are cast to `[1, b, c]` and broadcast along theirs. A sum over the last axis of an
  `[A, B, C]` array with the zero accumulator is, at `(i, j)`, the sum over `k` of the entries `(i, j, k)`.
  A maximum along the rows of an `[R, W]` array — the vector unit's reduction from its accumulator's value, or the
  host's from its initial value — is the fold of `max` over the row's entries from that value. A column `[a, 1]`
  cast to the vector `[a]` reads its entry `(i, 0)`. All are stated at indices built from literal coordinates.
-/
import Idealize.ShloMosaic.PureOps.Ideal.Laws
import Idealize.ShloMosaic.Lib.Pipeline.Value
import Idealize.ShloMosaic.Lib.ValueIdx
import Idealize.ShloMosaic.Lib.IdealHost

namespace Cert.Layout3

open Idealize.ShloMosaic Idealize.ShloMosaic.ValueIdx
open scoped BigOperators

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1]` column cast to the vector `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

variable {A B C R W : ℕ}

/-- Over `(i, j)`, the index with the last coordinate `k` inserted is `(i, j, k)`. -/
theorem lift_last (h : (⟨3, ![A, B, C]⟩ : Shape).Reduces [2] ⟨2, ![A, B]⟩) (i : Fin A) (j : Fin B) (k : Fin C) :
    h.lift (ix2 i j) k = ix3 i j k := by
  funext c
  match c with
  | ⟨0, _⟩ => exact Fin.ext rfl
  | ⟨1, _⟩ => exact Fin.ext rfl
  | ⟨2, _⟩ => exact Fin.ext rfl

/-- A sum over the last axis with the zero accumulator, at `(i, j)`: the sum of the entries `(i, j, k)`. -/
theorem lastSumK (src : FVec Ideal ⟨3, ![A, B, C]⟩ .f32) (h : (⟨3, ![A, B, C]⟩ : Shape).Reduces [2] ⟨2, ![A, B]⟩)
    (hφ : FKind.Formats .f32) (hacc : (0x00000000#32 : BitVec 32) = 0x00000000#32) (i : Fin A) (j : Fin B) :
    multiReduction .add [2] ⟨2, ![A, B]⟩ src 0x00000000#32 h hφ hacc (ix2 i j) = ∑ k : Fin C, src (ix3 i j k) := by
  refine (Ideal.multiReduction_add_single src _ h hφ hacc (ix2 i j)).trans ?_
  exact Finset.sum_congr rfl fun k _ => congrArg src (lift_last h i j k)

/-- Over row `r`, the index with column `k` inserted is `(r, k)`. -/
theorem lift_row (h : (⟨2, ![R, W]⟩ : Shape).Reduces [1] ⟨1, ![R]⟩) (r : Fin R) (k : Fin W) :
    h.lift (ix1 r) k = ix2 r k := by
  funext c
  match c with
  | ⟨0, _⟩ => exact Fin.ext rfl
  | ⟨1, _⟩ => exact Fin.ext rfl

/-- The vector unit's maximum along the rows, at row `r`: the fold of `max` over the row from the accumulator's value. -/
theorem rowMaxK (src : FVec Ideal ⟨2, ![R, W]⟩ .f32) (acc : BitVec 32) (h : (⟨2, ![R, W]⟩ : Shape).Reduces [1] ⟨1, ![R]⟩)
    (hφ : FKind.Formats .f32) (hacc : acc = FKind.maximumf.neutral .f32 hφ) (r : Fin R) :
    multiReduction .maximumf [1] ⟨1, ![R]⟩ src acc h hφ hacc (ix1 r)
      = (Finset.univ : Finset (Fin W)).fold max (Ideal.ofBits .f32 acc) (fun k => src (ix2 r k)) := by
  refine (Ideal.multiReduction_maximumf_single src acc h hφ hacc (ix1 r)).trans ?_
  exact congrArg (Finset.fold max (Ideal.ofBits .f32 acc) · Finset.univ) (funext fun k => congrArg src (lift_row h r k))

/-- The host's maximum along the rows from an initial value, at row `r`: the same fold from that value. -/
theorem rowMaxH {u : Shape} (x : FVec Ideal ⟨2, ![R, W]⟩ .f32) (init : u.Idx → Ideal .f32)
    (h : (⟨2, ![R, W]⟩ : Shape).ReducesTo [1] ⟨1, ![R]⟩) (hu : 0 < u.numel) (r : Fin R) :
    Host.reduce FloatOps.maximumf x init h hu (ix1 r)
      = (Finset.univ : Finset (Fin W)).fold max (init (Shape.Idx.first hu)) (fun k => x (ix2 r k)) := by
  have h' : (⟨2, ![R, W]⟩ : Shape).Reduces [1] ⟨1, ![R]⟩ := h.elim fun e hb => ⟨e, Nat.one_pos, hb⟩
  refine (Host.reduce_eq_fold_single FloatOps.maximumf x init h h' hu (ix1 r)).trans ?_
  exact congrArg (Finset.fold max (init (Shape.Idx.first hu)) · Finset.univ) (funext fun k => congrArg x (lift_row h' r k))

end Cert.Layout3
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibRowOps.lean ====
/-
  Rows of a matrix read at an index, for any number of rows `R` and any width `W`.

  A sum along the rows of an `[R, W]` array — the vector unit's lane reduction with a zero accumulator, or the
  host's reduce from an initial value — is, at row `r`, the sum over `k : Fin W` of the entries `(r, k)`
  (the host's: the initial value plus that sum). A vector `[R]` broadcast to a column `[R, 1]` reads its entry
  `r`, and a column `[R, 1]` broadcast along its unit axis to `[R, W]` reads its entry `(r, 0)`. All are stated at
  indices built from literal coordinates, so they rewrite a payload whatever the width.
-/
import Idealize.ShloMosaic.PureOps.Ideal.Laws
import Idealize.ShloMosaic.Lib.Pipeline.Value
import Idealize.ShloMosaic.Lib.ValueIdx
import Idealize.ShloMosaic.Lib.IdealHost

namespace Cert.RowOps

open Idealize.ShloMosaic Idealize.ShloMosaic.ValueIdx
open scoped BigOperators

variable {R W : ℕ} {α : Type}

/-- Over row `r`, the index with column `k` inserted is `(r, k)`. -/
theorem lift_row (h : (⟨2, ![R, W]⟩ : Shape).Reduces [1] ⟨1, ![R]⟩) (r : Fin R) (k : Fin W) :
    h.lift (ix1 r) k = ix2 r k := by
  funext c
  match c with
  | ⟨0, _⟩ => exact Fin.ext rfl
  | ⟨1, _⟩ => exact Fin.ext rfl

/-- A lane sum with the zero accumulator, at row `r`: the sum of the row's entries. -/
theorem rowSumK (src : FVec Ideal ⟨2, ![R, W]⟩ .f32) (h : (⟨2, ![R, W]⟩ : Shape).Reduces [1] ⟨1, ![R]⟩)
    (hφ : FKind.Formats .f32) (hacc : (0x00000000#32 : BitVec 32) = 0x00000000#32) (r : Fin R) :
    multiReduction .add [1] ⟨1, ![R]⟩ src 0x00000000#32 h hφ hacc (ix1 r) = ∑ k : Fin W, src (ix2 r k) := by
  refine (Ideal.multiReduction_add_single src _ h hφ hacc (ix1 r)).trans ?_
  exact Finset.sum_congr rfl fun k _ => congrArg src (lift_row h r k)

/-- The host's sum along the rows from an initial value, at row `r`: that value plus the sum of the row's entries. -/
theorem rowSumH {u : Shape} (x : FVec Ideal ⟨2, ![R, W]⟩ .f32) (init : u.Idx → Ideal .f32)
    (h : (⟨2, ![R, W]⟩ : Shape).ReducesTo [1] ⟨1, ![R]⟩) (hu : 0 < u.numel) (r : Fin R) :
    Host.reduceAdd x init h hu (ix1 r) = init (Shape.Idx.first hu) + ∑ k : Fin W, x (ix2 r k) := by
  have h' : (⟨2, ![R, W]⟩ : Shape).Reduces [1] ⟨1, ![R]⟩ := h.elim fun e hb => ⟨e, Nat.one_pos, hb⟩
  refine (hostReduceAdd_apply x init h hu (ix1 r)).trans ?_
  refine (Ideal.hostReduceAdd_single h h' x _ (ix1 r)).trans ?_
  exact congrArg _ (Finset.sum_congr rfl fun k _ => congrArg x (lift_row h' r k))

/-- A vector `[R]` broadcast to a column `[R, 1]` reads, at `(r, u)`, its entry `r`. -/
theorem bcastCol (v : (⟨1, ![R]⟩ : Shape).Idx → α)
    (h : (⟨1, ![R]⟩ : Shape).BroadcastsInDim ⟨2, ![R, 1]⟩ (![0] : Fin 1 → Fin 2)) (r : Fin R) (u : Fin 1) :
    broadcastInDim ⟨2, ![R, 1]⟩ (![0] : Fin 1 → Fin 2) h v (ix2 r u) = v (ix1 r) := by
  refine broadcastInDim_apply _ h v (ix2 r u) (ix1 r) fun a => ?_
  match a with
  | ⟨0, _⟩ =>
    show r.val = if R = 1 then 0 else r.val
    split
    · have := r.isLt; omega
    · rfl

/-- A column `[R, 1]` broadcast to `[R, W]` reads, at `(r, k)`, its entry `(r, 0)`. -/
theorem bcastRows (v : (⟨2, ![R, 1]⟩ : Shape).Idx → α)
    (h : (⟨2, ![R, 1]⟩ : Shape).BroadcastsInDim ⟨2, ![R, W]⟩ (![0, 1] : Fin 2 → Fin 2)) (r : Fin R) (k : Fin W) :
    broadcastInDim ⟨2, ![R, W]⟩ (![0, 1] : Fin 2 → Fin 2) h v (ix2 r k) = v (ix2 r (0 : Fin 1)) := by
  refine broadcastInDim_apply _ h v (ix2 r k) (ix2 r (0 : Fin 1)) fun a => ?_
  match a with
  | ⟨0, _⟩ =>
    show r.val = if R = 1 then 0 else r.val
    split
    · have := r.isLt; omega
    · rfl
  | ⟨1, _⟩ => rfl

end Cert.RowOps
-- ==== Proof.BranchValue.lean ====
/-
  The body's functions read at an index, on the extended reals.

  Each function of `Branch.lean` at a row `b` (and rule `r`, logit `o`) is the corresponding scalar expression of
  `Spec.lean` in the row's sixteen features: the squared differences, the reciprocal widths, the exponent as a sum over the
  features, the firing strengths, their normalisation by the row's total, the consequents (a bias plus one row of a
  matrix product), the weighted sum over the rules, one mixing step, and the softmax of a row's two logits.
-/
import proofs.«104609_j70042326663683_2_alg».proof.Proof.Branch
import proofs.«104609_j70042326663683_2_alg».proof.Proof.Spec
import proofs.«104609_j70042326663683_2_alg».proof.Proof.LibLayout3
import proofs.«104609_j70042326663683_2_alg».proof.Proof.LibColumns
import proofs.«104609_j70042326663683_2_alg».proof.Proof.LibRowOps
import Idealize.ShloMosaic.Lib.ValueLayout

noncomputable section

namespace Cert.Body

open Cert.KernelIdeal Cert.KernelIdeal.Gen Idealize.ShloMosaic Idealize.ShloMosaic.ValueIdx
open Cert.Fuzzy Cert.Layout3 Cert.Columns
open scoped BigOperators

theorem sq_apply (x : FVec Ideal S1024x16 .f32) (mu : FVec Ideal S32x16 .f32) (b : Fin 1024) (r : Fin 32) (f : Fin 16) :
    sq x mu (ix3 b r f) = (x (ix2 b f) - mu (ix2 r f)) * (x (ix2 b f) - mu (ix2 r f)) := by
  have e : (subf
      (broadcastTo S1024x32x16 (shapeCast S1024x1x16 x shapeCasts_S1024x16_S1024x1x16) broadcasts_S1024x1x16_S1024x32x16)
      (broadcastTo S1024x32x16 (shapeCast S1x32x16 mu shapeCasts_S32x16_S1x32x16) broadcasts_S1x32x16_S1024x32x16))
      (ix3 b r f) = x (ix2 b f) - mu (ix2 r f) := by
    show _ - _ = _
    rw [broadcastTo_a1c_abc_apply, shapeCast_ab_a1b_apply, broadcastTo_1bc_abc_apply, shapeCast_ab_1ab_apply]
  show _ * _ = _
  rw [e]

theorem recip_apply (sg : FVec Ideal S32x16 .f32) (r : Fin 32) (f : Fin 16) :
    recip sg (ix2 r f) = Ideal.div one (two * sg (ix2 r f) * sg (ix2 r f)) := rfl

theorem expon_apply (x : FVec Ideal S1024x16 .f32) (mu sg : FVec Ideal S32x16 .f32) (b : Fin 1024) (r : Fin 32) :
    expon x mu sg (ix2 b r)
      = expoRecip (fun f => x (ix2 b f)) (fun f => mu (ix2 r f)) (fun f => sg (ix2 r f)) := by
  unfold expon expoRecip
  refine (lastSumK _ _ _ _ b r).trans (Finset.sum_congr rfl fun f _ => ?_)
  show sq x mu (ix3 b r f) * _ = _
  rw [sq_apply, broadcastTo_1bc_abc_apply, shapeCast_ab_1ab_apply, recip_apply]

theorem fire_apply (x : FVec Ideal S1024x16 .f32) (mu sg : FVec Ideal S32x16 .f32) (b : Fin 1024) (r : Fin 32) :
    fire x mu sg (ix2 b r)
      = ruleRecip (fun f => x (ix2 b f)) (fun r f => mu (ix2 r f)) (fun r f => sg (ix2 r f)) r := by
  unfold fire ruleRecip
  show Ideal.exp (zero - expon x mu sg (ix2 b r)) = _
  rw [expon_apply]

theorem rowTotal_apply (v : FVec Ideal S1024x32 .f32) (b : Fin 1024) (r : Fin 32) :
    rowTotal v (ix2 b r) = ∑ k : Fin 32, v (ix2 b k) := by
  unfold rowTotal
  rw [broadcastTo_a1_ab_apply, shapeCast_a_a1_apply, Cert.RowOps.rowSumK]

theorem strengths_apply (x : FVec Ideal S1024x16 .f32) (mu sg : FVec Ideal S32x16 .f32) (b : Fin 1024) (r : Fin 32) :
    strengths x mu sg (ix2 b r)
      = Ideal.div (ruleRecip (fun f => x (ix2 b f)) (fun r f => mu (ix2 r f)) (fun r f => sg (ix2 r f)) r)
          (∑ r' : Fin 32, ruleRecip (fun f => x (ix2 b f)) (fun r f => mu (ix2 r f)) (fun r f => sg (ix2 r f)) r') := by
  show Ideal.div (fire x mu sg (ix2 b r)) (rowTotal (fire x mu sg) (ix2 b r)) = _
  rw [rowTotal_apply, fire_apply]
  simp only [fire_apply]

theorem lhs_row (i : S1024x32.Idx) (q : (dot_S1024x16_S16x32_S1024x32_1_0_0_1_n_n).contr.Idx) :
    ((dot_S1024x16_S16x32_S1024x32_1_0_0_1_n_n).lhsIdx i q 0).val = (i 0).val := by
  unfold DotDims.lhsIdx
  rw [dif_neg (show ¬(0 : Fin S1024x16.rank) ∈ (dot_S1024x16_S16x32_S1024x32_1_0_0_1_n_n).lhsBatch by decide), dif_pos (show (0 : Fin S1024x16.rank) ∈ (dot_S1024x16_S16x32_S1024x32_1_0_0_1_n_n).lhsNonContracting by decide)]
  rfl
theorem lhs_col (i : S1024x32.Idx) (q : (dot_S1024x16_S16x32_S1024x32_1_0_0_1_n_n).contr.Idx) :
    ((dot_S1024x16_S16x32_S1024x32_1_0_0_1_n_n).lhsIdx i q 1).val = (q ⟨0, by decide⟩).val :=
  (dot_S1024x16_S16x32_S1024x32_1_0_0_1_n_n).lhsIdx_val_of_single rfl i q
theorem rhs_row (i : S1024x32.Idx) (q : (dot_S1024x16_S16x32_S1024x32_1_0_0_1_n_n).contr.Idx) :
    ((dot_S1024x16_S16x32_S1024x32_1_0_0_1_n_n).rhsIdx i q 0).val = (q ⟨0, by decide⟩).val :=
  (dot_S1024x16_S16x32_S1024x32_1_0_0_1_n_n).rhsIdx_val_of_single rfl i q
theorem rhs_col (i : S1024x32.Idx) (q : (dot_S1024x16_S16x32_S1024x32_1_0_0_1_n_n).contr.Idx) :
    ((dot_S1024x16_S16x32_S1024x32_1_0_0_1_n_n).rhsIdx i q 1).val = (i 1).val := by
  unfold DotDims.rhsIdx
  rw [dif_neg (show ¬(1 : Fin S16x32.rank) ∈ (dot_S1024x16_S16x32_S1024x32_1_0_0_1_n_n).rhsBatch by decide), dif_pos (show (1 : Fin S16x32.rank) ∈ (dot_S1024x16_S16x32_S1024x32_1_0_0_1_n_n).rhsNonContracting by decide)]
  rfl

/-- One entry of the rows times the transposed weight columns: the sum over the sixteen features. -/
theorem product_apply (x : FVec Ideal S1024x16 .f32) (y : FVec Ideal S16x32 .f32) (b : Fin 1024) (r : Fin 32) :
    matmul dot_S1024x16_S16x32_S1024x32_1_0_0_1_n_n none x y (constant S1024x32 .f32 0x00000000#32) (ix2 b r)
      = ∑ f : Fin 16, x (ix2 b f) * y (ix2 f r) := by
  simp only [matmul]
  rw [Ideal.matmul_constant_zero_apply, ← Equiv.sum_comp (contrEquiv1 dot_S1024x16_S16x32_S1024x32_1_0_0_1_n_n 16 rfl rfl).symm]
  refine Finset.sum_congr rfl fun k _ => ?_
  have hk := contrEquiv1_symm_val dot_S1024x16_S16x32_S1024x32_1_0_0_1_n_n 16 rfl rfl k
  have el : dot_S1024x16_S16x32_S1024x32_1_0_0_1_n_n.lhsIdx (ix2 b r) ((contrEquiv1 dot_S1024x16_S16x32_S1024x32_1_0_0_1_n_n 16 rfl rfl).symm k) = ix2 b k :=
    funext fun a => Fin.ext (by
      match a with
      | ⟨0, _⟩ => exact lhs_row _ _
      | ⟨1, _⟩ => exact (lhs_col _ _).trans hk)
  have er : dot_S1024x16_S16x32_S1024x32_1_0_0_1_n_n.rhsIdx (ix2 b r) ((contrEquiv1 dot_S1024x16_S16x32_S1024x32_1_0_0_1_n_n 16 rfl rfl).symm k) = ix2 k r :=
    funext fun a => Fin.ext (by
      match a with
      | ⟨0, _⟩ => exact (rhs_row _ _).trans hk
      | ⟨1, _⟩ => exact rhs_col _ _)
  rw [el, er]

theorem consequents_apply (x : FVec Ideal S1024x16 .f32) (w3 : FVec Ideal S32x17 .f32) (b : Fin 1024) (r : Fin 32) :
    consequents x w3 (ix2 b r) = conq (fun f => x (ix2 b f)) (fun r j => w3 (ix2 r j)) r := by
  unfold consequents conq
  show _ + _ = _
  rw [product_apply, broadcastTo_1b_ab_apply, shapeCast_a_1a_apply, shapeCast_a1_a_apply,
    slice2_axis1_apply 16 w3 _ r (0 : Fin 1) (16 : Fin 17) rfl]
  refine congrArg (_ + ·) (Finset.sum_congr rfl fun f _ => ?_)
  rw [transpose_ix2_apply, slice2_axis1_apply 0 w3 _ r f f.castSucc (by simp)]

theorem weighted_apply (x : FVec Ideal S1024x16 .f32) (nrm : FVec Ideal S1024x32 .f32) (w3 : FVec Ideal S32x17 .f32) (b : Fin 1024) :
    weighted x nrm w3 (ix1 b)
      = ∑ r : Fin 32, nrm (ix2 b r) * conq (fun f => x (ix2 b f)) (fun r j => w3 (ix2 r j)) r := by
  unfold weighted
  refine (Cert.RowOps.rowSumK _ _ _ _ b).trans (Finset.sum_congr rfl fun r _ => ?_)
  show nrm (ix2 b r) * consequents x w3 (ix2 b r) = _
  rw [consequents_apply]

theorem branch_apply (X : Vec Ideal S1x1024x16 .f32) (M S : Vec Ideal S1x32x16 .f32) (W : Vec Ideal S1x32x17 .f32) (b : Fin 1024) :
    branch X M S W (ix1 b)
      = tskRecip (fun f => X (ix3 (0 : Fin 1) b f)) (fun r f => M (ix3 (0 : Fin 1) r f)) (fun r f => S (ix3 (0 : Fin 1) r f))
          (fun r j => W (ix3 (0 : Fin 1) r j)) := by
  unfold branch tskRecip
  rw [weighted_apply]
  simp only [strengths_apply, shapeCast_1ab_ab_apply]

theorem mix_apply (acc : FVec Ideal S1024x2 .f32) (t : FVec Ideal S1024 .f32) (wk : FVec Ideal S2x1 .f32) (b : Fin 1024) (o : Fin 2) :
    mix acc t wk (ix2 b o) = acc (ix2 b o) + t (ix1 b) * wk (ix2 o (0 : Fin 1)) := by
  unfold mix
  show _ + _ * _ = _
  rw [broadcastTo_a1_ab_apply, shapeCast_a_a1_apply, broadcastTo_1b_ab_apply, shapeCast_a_1a_apply, shapeCast_a1_a_apply]

theorem spread_apply (v : FVec Ideal S1024 .f32) (b : Fin 1024) (o : Fin 2) : spread v (ix2 b o) = v (ix1 b) := by
  unfold spread
  rw [broadcastTo_a1_ab_apply, shapeCast_a_a1_apply]

theorem softmaxRows_apply (z : FVec Ideal S1024x2 .f32) (b : Fin 1024) (o : Fin 2) :
    softmaxRows z (ix2 b o) = softmax2 (fun k => z (ix2 b k)) o := by
  unfold softmaxRows softmax2
  show Ideal.div (Ideal.exp (z (ix2 b o) - spread (F := Ideal) _ (ix2 b o))) (spread (F := Ideal) _ (ix2 b o)) = _
  rw [spread_apply, spread_apply, Cert.RowOps.rowSumK]
  have hm : (maximumf (broadcast S1024 (Scalar.ofBits .f32 0xFF800000#32))
      (multiReduction .maximumf [1] S1024 z 0xFF800000#32 reduces_S1024x2_S1024 (.inl rfl) rfl)) (ix1 b)
      = max ninf ((Finset.univ : Finset (Fin 2)).fold max ninf (fun k => z (ix2 b k))) := by
    exact congrArg (max ninf) (rowMaxK z 0xFF800000#32 reduces_S1024x2_S1024 (.inl rfl) rfl b)
  rw [hm]
  refine congrArg _ (Finset.sum_congr rfl fun k _ => ?_)
  show Ideal.exp (z (ix2 b k) - spread (F := Ideal) _ (ix2 b k)) = _
  rw [spread_apply, hm]

theorem finish_apply (b5 : Vec Ideal S2 .f32) (acc : FVec Ideal S1024x2 .f32) (b : Fin 1024) (o : Fin 2) :
    finish b5 acc (ix2 b o) = softmax2 (fun k => acc (ix2 b k) + b5 (ix1 k)) o := by
  unfold finish
  rw [softmaxRows_apply]
  refine congrArg (softmax2 · o) (funext fun k => ?_)
  show _ + _ = _
  rw [broadcastTo_1b_ab_apply, shapeCast_a_1a_apply]

end Cert.Body

end
-- ==== Proof.KernelValue.lean ====
/-
  The kernel's result array as one function of the argument arrays.

  `classify` is the classifier of `Spec.lean` over whole arrays: entry `(b, o)` of the result is the softmax, at `o`,
  of row `b`'s two logits. Grid point `t` handles rows `1024 t … 1024 t + 1023`: it loads those rows of every branch
  and all of the parameters, and what it writes back is those rows of `classify` (`written`), provided no width is
  zero, which is where the body's product with `1 / (2σ²)` is the quotient by `2σ²`. The thirty-two blocks tile the
  result, so after the run the array is `classify` of the arguments (`result_eq`, `run`).
-/
import proofs.«104609_j70042326663683_2_alg».proof.Proof.BranchValue
import proofs.«104609_j70042326663683_2_alg».proof.Proof.Gen.KernelIdeal.Value

set_option maxRecDepth 16384

noncomputable section

namespace Cert.KernelValue

open Cert.KernelIdeal Cert.KernelIdeal.Gen Idealize.ShloMosaic Idealize.ShloMosaic.TcCoe Idealize.SL.Sem
open Idealize.ShloMosaic.ValueIdx Cert.Fuzzy
open Idealize.ShloMosaic.Pipeline (Dat)
open scoped BigOperators

theorem hz2 : (![0, 0] : Fin 2 → Nat) = fun _ => 0 := funext fun a => by fin_cases a <;> rfl
theorem hz1 : (![0] : Fin 1 → Nat) = fun _ => 0 := funext fun a => by fin_cases a; rfl

/-- The index a one-branch slab's rectangle reads under `(0, i, j)` is `(k, i, j)`. -/
theorem slab_idx {n a b : ℕ} (k : ℕ) (hk : k < n)
    (inb : ∀ ax, (![k, 0, 0] : Fin 3 → ℕ) ax + (![1, a, b] : Fin 3 → ℕ) ax ≤ (⟨3, ![n, a, b]⟩ : Shape).size ax)
    (i : Fin a) (j : Fin b) :
    (Rect.unit (s := ⟨3, ![n, a, b]⟩) ![k, 0, 0] ![1, a, b] inb).idx (ix3 (0 : Fin 1) i j) = ix3 ⟨k, hk⟩ i j := by
  funext ax
  apply Fin.ext
  match ax with
  | ⟨0, _⟩ => show k + 1 * 0 = k; omega
  | ⟨1, _⟩ => show 0 + 1 * i.val = i.val; omega
  | ⟨2, _⟩ => show 0 + 1 * j.val = j.val; omega

/-- What the body stores at row `p` of its block, logit `q`: the classifier of the loaded slabs, in the body's
    arrangement (reciprocals, a running sum). -/
theorem stored_apply (x0 : Vec Ideal S8x1024x16 .f32) (x1 x2 : Vec Ideal S8x32x16 .f32) (x3 : Vec Ideal S8x32x17 .f32)
    (x4 : Vec Ideal S2x8 .f32) (x5 : Vec Ideal S2 .f32) (p : Fin 1024) (q : Fin 2) :
    Body.stored x0 x1 x2 x3 x4 x5 (ix2 p q)
      = softmax2 (fun o => logitChain
          (fun k => tskRecip (fun f => x0 (ix3 k p f)) (fun r f => x1 (ix3 k r f)) (fun r f => x2 (ix3 k r f)) (fun r j => x3 (ix3 k r j)))
          (fun k => x4 (ix2 o k)) (x5 (ix1 o))) q := by
  unfold Body.stored
  rw [Body.finish_apply]
  refine congrArg (softmax2 · q) (funext fun o => ?_)
  unfold Body.mixed logitChain
  simp only [Body.mix_apply, Body.branch_apply, View.ld_unit_zero (S := S2x8) hz2, View.ld_unit_zero (S := S2) hz1]
  rw [slice2_axis1_apply 0 x4 _ o (0 : Fin 1) (0 : Fin 8) rfl, slice2_axis1_apply 1 x4 _ o (0 : Fin 1) (1 : Fin 8) rfl,
    slice2_axis1_apply 2 x4 _ o (0 : Fin 1) (2 : Fin 8) rfl, slice2_axis1_apply 3 x4 _ o (0 : Fin 1) (3 : Fin 8) rfl,
    slice2_axis1_apply 4 x4 _ o (0 : Fin 1) (4 : Fin 8) rfl, slice2_axis1_apply 5 x4 _ o (0 : Fin 1) (5 : Fin 8) rfl,
    slice2_axis1_apply 6 x4 _ o (0 : Fin 1) (6 : Fin 8) rfl, slice2_axis1_apply 7 x4 _ o (0 : Fin 1) (7 : Fin 8) rfl]
  have e0 : ∀ (k : ℕ) (hk : k < 8) inb, (fun f => View.ld x0 (Rect.unit (s := S8x1024x16) ![k, 0, 0] S1x1024x16.size inb) (ix3 (0 : Fin 1) p f))
      = fun f => x0 (ix3 ⟨k, hk⟩ p f) := fun k hk inb => funext fun f => congrArg x0 (slab_idx k hk inb p f)
  have e1 : ∀ (k : ℕ) (hk : k < 8) inb, (fun r f => View.ld x1 (Rect.unit (s := S8x32x16) ![k, 0, 0] S1x32x16.size inb) (ix3 (0 : Fin 1) r f))
      = fun r f => x1 (ix3 ⟨k, hk⟩ r f) := fun k hk inb => funext fun r => funext fun f => congrArg x1 (slab_idx k hk inb r f)
  have e2 : ∀ (k : ℕ) (hk : k < 8) inb, (fun r f => View.ld x2 (Rect.unit (s := S8x32x16) ![k, 0, 0] S1x32x16.size inb) (ix3 (0 : Fin 1) r f))
      = fun r f => x2 (ix3 ⟨k, hk⟩ r f) := fun k hk inb => funext fun r => funext fun f => congrArg x2 (slab_idx k hk inb r f)
  have e3 : ∀ (k : ℕ) (hk : k < 8) inb, (fun r j => View.ld x3 (Rect.unit (s := S8x32x17) ![k, 0, 0] S1x32x17.size inb) (ix3 (0 : Fin 1) r j))
      = fun r j => x3 (ix3 ⟨k, hk⟩ r j) := fun k hk inb => funext fun r => funext fun j => congrArg x3 (slab_idx k hk inb r j)
  rw [e0 0 (by decide), e0 1 (by decide), e0 2 (by decide), e0 3 (by decide), e0 4 (by decide), e0 5 (by decide), e0 6 (by decide), e0 7 (by decide),
    e1 0 (by decide), e1 1 (by decide), e1 2 (by decide), e1 3 (by decide), e1 4 (by decide), e1 5 (by decide), e1 6 (by decide), e1 7 (by decide),
    e2 0 (by decide), e2 1 (by decide), e2 2 (by decide), e2 3 (by decide), e2 4 (by decide), e2 5 (by decide), e2 6 (by decide), e2 7 (by decide),
    e3 0 (by decide), e3 1 (by decide), e3 2 (by decide), e3 3 (by decide), e3 4 (by decide), e3 5 (by decide), e3 6 (by decide), e3 7 (by decide),
    show View.ld x5 r0_1 (ix1 o) = x5 (ix1 o) from congrFun (View.ld_unit_zero (S := S2) hz1 _ x5) (ix1 o)]
  rfl

variable (m : (ℓ : Loc nD τ sig) → Buf (Elt Ideal) ℓ) (ρ : Dev nD → PrngReg)

/-- Where each window's block sits at grid point `t`: the rows window and the result window at row block `t`, every
    other window at the whole array (decided over the thirty-two points). -/
theorem idx_facts : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0)
    ∧ win0_5.index t (0 : Fin 1) = 0
    ∧ (win0_6.index t (0 : Fin 2) = t.val ∧ win0_6.index t (1 : Fin 2) = 0) :=
  (by decide +kernel : ∀ t : Fin grid0.N, _)

/-- Row `p` of point `t`'s block is row `1024 t + p` of the array. -/
def rowOf (t : Fin cfg0.N) (p : Fin 1024) : Fin 32768 :=
  ⟨t.val * 1024 + p.val, by have hN : cfg0.N = 32 := N_0; have ht : t.val < cfg0.N := t.isLt; have hp : p.val < 1024 := p.isLt; omega⟩

theorem rows_block (c : Dev nD) (t : Fin cfg0.N) (k : Fin 8) (p : Fin 1024) (f : Fin 16) :
    (iblk m c 0 t : Vec Ideal S8x1024x16 .f32) (ix3 k p f) = (V m c main_arg0 : S8x32768x16.Idx → EReal) (ix3 k (rowOf t p) f) := by
  obtain ⟨⟨e0, e1, e2⟩, -⟩ := idx_facts t
  unfold iblk
  rw [View.read_apply]
  show V m c main_arg0 _ = V m c main_arg0 _
  congr 1
  funext a
  apply Fin.ext
  match a with
  | ⟨0, _⟩ => show win0_0.index t (0 : Fin 3) * 8 + 1 * k.val = k.val; rw [e0]; omega
  | ⟨1, _⟩ => show win0_0.index t (1 : Fin 3) * 1024 + 1 * p.val = t.val * 1024 + p.val; rw [e1]; omega
  | ⟨2, _⟩ => show win0_0.index t (2 : Fin 3) * 16 + 1 * f.val = f.val; rw [e2]; omega

theorem centres_block (c : Dev nD) (t : Fin cfg0.N) (j : S8x32x16.Idx) :
    (iblk m c 1 t : Vec Ideal S8x32x16 .f32) j = (V m c main_arg1 : S8x32x16.Idx → EReal) j := by
  obtain ⟨-, ⟨e0, e1, e2⟩, -⟩ := idx_facts t
  unfold iblk
  rw [View.read_apply]
  show V m c main_arg1 _ = V m c main_arg1 _
  congr 1
  funext a
  apply Fin.ext
  match a with
  | ⟨0, _⟩ => show win0_1.index t (0 : Fin 3) * 8 + 1 * (j 0).val = (j 0).val; rw [e0]; omega
  | ⟨1, _⟩ => show win0_1.index t (1 : Fin 3) * 32 + 1 * (j 1).val = (j 1).val; rw [e1]; omega
  | ⟨2, _⟩ => show win0_1.index t (2 : Fin 3) * 16 + 1 * (j 2).val = (j 2).val; rw [e2]; omega

theorem widths_block (c : Dev nD) (t : Fin cfg0.N) (j : S8x32x16.Idx) :
    (iblk m c 2 t : Vec Ideal S8x32x16 .f32) j = (V m c main_arg2 : S8x32x16.Idx → EReal) j := by
  obtain ⟨-, -, ⟨e0, e1, e2⟩, -⟩ := idx_facts t
  unfold iblk
  rw [View.read_apply]
  show V m c main_arg2 _ = V m c main_arg2 _
  congr 1
  funext a
  apply Fin.ext
  match a with
  | ⟨0, _⟩ => show win0_2.index t (0 : Fin 3) * 8 + 1 * (j 0).val = (j 0).val; rw [e0]; omega
  | ⟨1, _⟩ => show win0_2.index t (1 : Fin 3) * 32 + 1 * (j 1).val = (j 1).val; rw [e1]; omega
  | ⟨2, _⟩ => show win0_2.index t (2 : Fin 3) * 16 + 1 * (j 2).val = (j 2).val; rw [e2]; omega

theorem weights_block (c : Dev nD) (t : Fin cfg0.N) (j : S8x32x17.Idx) :
    (iblk m c 3 t : Vec Ideal S8x32x17 .f32) j = (V m c main_arg3 : S8x32x17.Idx → EReal) j := by
  obtain ⟨-, -, -, ⟨e0, e1, e2⟩, -⟩ := idx_facts t
  unfold iblk
  rw [View.read_apply]
  show V m c main_arg3 _ = V m c main_arg3 _
  congr 1
  funext a
  apply Fin.ext
  match a with
  | ⟨0, _⟩ => show win0_3.index t (0 : Fin 3) * 8 + 1 * (j 0).val = (j 0).val; rw [e0]; omega
  | ⟨1, _⟩ => show win0_3.index t (1 : Fin 3) * 32 + 1 * (j 1).val = (j 1).val; rw [e1]; omega
  | ⟨2, _⟩ => show win0_3.index t (2 : Fin 3) * 17 + 1 * (j 2).val = (j 2).val; rw [e2]; omega

theorem mixing_block (c : Dev nD) (t : Fin cfg0.N) (j : S2x8.Idx) :
    (iblk m c 4 t : Vec Ideal S2x8 .f32) j = (V m c main_arg4 : S2x8.Idx → EReal) j := by
  obtain ⟨-, -, -, -, ⟨e0, e1⟩, -⟩ := idx_facts t
  unfold iblk
  rw [View.read_apply]
  show V m c main_arg4 _ = V m c main_arg4 _
  congr 1
  funext a
  apply Fin.ext
  match a with
  | ⟨0, _⟩ => show win0_4.index t (0 : Fin 2) * 2 + 1 * (j 0).val = (j 0).val; rw [e0]; omega
  | ⟨1, _⟩ => show win0_4.index t (1 : Fin 2) * 8 + 1 * (j 1).val = (j 1).val; rw [e1]; omega

theorem bias_block (c : Dev nD) (t : Fin cfg0.N) (j : S2.Idx) :
    (iblk m c 5 t : Vec Ideal S2 .f32) j = (V m c main_arg5 : S2.Idx → EReal) j := by
  obtain ⟨-, -, -, -, -, e0, -⟩ := idx_facts t
  unfold iblk
  rw [View.read_apply]
  show V m c main_arg5 _ = V m c main_arg5 _
  congr 1
  funext a
  apply Fin.ext
  match a with
  | ⟨0, _⟩ => show win0_5.index t (0 : Fin 1) * 2 + 1 * (j 0).val = (j 0).val; rw [e0]; omega

/-- WHAT POINT `t` WRITES BACK is rows `1024 t …` of the classifier of the argument arrays, when no width is zero. -/
theorem written (c : Dev nD) (hs : ∀ i, (V m c main_arg2 : S8x32x16.Idx → EReal) i ≠ (0 : EReal)) (t : Fin cfg0.N) :
    (dats m 0 c).flushed 6 t = ((cfg0.win 6).blk t).view.read (Elt Ideal)
      (classify (V m c main_arg0) (V m c main_arg1) (V m c main_arg2) (V m c main_arg3) (V m c main_arg4) (V m c main_arg5)) := by
  rw [Cert.KernelIdeal.Value.flushed6, Body.out_eq, View.canon_unit_zero hz2]
  obtain ⟨-, -, -, -, -, -, ⟨e0, e1⟩⟩ := idx_facts t
  funext j
  obtain ⟨p, q, rfl⟩ : ∃ (p : Fin 1024) (q : Fin 2), j = ix2 p q := ⟨j 0, j 1, eq_ix2 j⟩
  have hi : ((cfg0.win 6).blk t).view.emb (ix2 p q) = ix2 (rowOf t p) q := by
    funext a
    apply Fin.ext
    match a with
    | ⟨0, _⟩ => show win0_6.index t (0 : Fin 2) * 1024 + 1 * p.val = t.val * 1024 + p.val; rw [e0]; omega
    | ⟨1, _⟩ => show win0_6.index t (1 : Fin 2) * 2 + 1 * q.val = q.val; rw [e1]; omega
  show Body.stored (iblk m c 0 t) (iblk m c 1 t) (iblk m c 2 t) (iblk m c 3 t) (iblk m c 4 t) (iblk m c 5 t) (ix2 p q)
    = classify (V m c main_arg0) (V m c main_arg1) (V m c main_arg2) (V m c main_arg3) (V m c main_arg4) (V m c main_arg5)
        (((cfg0.win 6).blk t).view.emb (ix2 p q))
  rw [hi]
  refine (stored_apply (iblk m c 0 t) (iblk m c 1 t) (iblk m c 2 t) (iblk m c 3 t) (iblk m c 4 t) (iblk m c 5 t) p q).trans ?_
  show _ = classifyAt _ _ _ _ _ _ (rowOf t p) q
  unfold classifyAt
  simp only [rows_block, centres_block, widths_block, weights_block, mixing_block, bias_block, logitChain_eq]
  refine congrArg (softmax2 · q) (funext fun o => congrArg (logit · _ _) (funext fun k => ?_))
  exact tskRecip_eq _ _ _ _ fun r f => hs _

/-- The thirty-two row blocks tile the result, so the array ends holding the classifier of the arguments. -/
theorem result_eq (c : Dev nD) (hs : ∀ i, (V m c main_arg2 : S8x32x16.Idx → EReal) i ≠ (0 : EReal)) :
    (dats m 0 c).arrAt 6 cfg0.N
      = classify (V m c main_arg0) (V m c main_arg1) (V m c main_arg2) (V m c main_arg3) (V m c main_arg4) (V m c main_arg5) :=
  (dats m 0 c).arrAt_eq_of_cover 6 _ (fun t _ => written m c hs t) fun i => by
    have h0 : (i 0).val < 32768 := (i 0).isLt
    have h1 : (i 1).val < 2 := (i 1).isLt
    let t : Fin cfg0.N := ⟨(i 0).val / 1024, by rw [show cfg0.N = 32 from N_0]; omega⟩
    obtain ⟨-, -, -, -, -, -, ⟨e0, e1⟩⟩ := idx_facts t
    refine ⟨t, flush0_6 t, ?_⟩
    show i ∈ ((View.whole main_v0).slice (win0_6.rect t)).set
    rw [View.set_slice_whole, Rect.mem_set_unit]
    intro a
    match a with
    | ⟨0, _⟩ =>
      show win0_6.index t (0 : Fin 2) * 1024 ≤ (i 0).val ∧ (i 0).val < win0_6.index t (0 : Fin 2) * 1024 + 1024
      rw [e0]; show (i 0).val / 1024 * 1024 ≤ (i 0).val ∧ (i 0).val < (i 0).val / 1024 * 1024 + 1024; omega
    | ⟨1, _⟩ =>
      show win0_6.index t (1 : Fin 2) * 2 ≤ (i 1).val ∧ (i 1).val < win0_6.index t (1 : Fin 2) * 2 + 2
      rw [e1]; omega

/-- The kernel's run, read: the result array at the classifier of the launched arguments, the arguments unchanged. -/
theorem run (hs : ∀ c : Dev nD, ∀ i, (m ((c : Thread nD τ).loc main_arg2) : S8x32x16.Idx → EReal) i ≠ (0 : EReal)) :
    θ_run defs (onTc (τ := τ) (main (F := Ideal))) ⟨m, fun _ => 0, ρ⟩ fun r => ∀ c : Dev nD,
      r.2.mem ((c : Thread nD τ).loc main_v0)
        = classify (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (result_eq m c (hs c)), (h c).2⟩)
    (Cert.KernelIdeal.Value.run_blocks m ρ)

end Cert.KernelValue

end
-- ==== Proof.RefValue.lean ====
/-
  The reference's result is the classifier of `Spec.lean`.

  Its operations are read one at a time at an index: the exponent of rule `r` of branch `k` on row `b` as the sum over the
  features of the quotients `(x - μ)² / (2σ²)`; the firing strength; its normalisation by the row's total; the
  consequent (bias plus one entry of the batched product); the branch output; a logit as the product with the mixing
  matrix plus the bias; and the softmax of the row's two logits, shifted by their maximum. The initial value of each of
  its sums is the word of zero.
-/
import proofs.«104609_j70042326663683_2_alg».proof.Proof.Gen.ReferenceIdeal.Read
import proofs.«104609_j70042326663683_2_alg».proof.Proof.Spec
import proofs.«104609_j70042326663683_2_alg».proof.Proof.LibLayout3

noncomputable section

namespace Cert.RefBridge

open Cert.ReferenceIdeal Cert.ReferenceIdeal.Gen Cert.ReferenceIdeal.Read Idealize.ShloMosaic Idealize.ShloMosaic.ValueIdx
open Cert.Fuzzy
open scoped BigOperators

variable (x0 : FVec Ideal S8x32768x16 .f32) (x1 x2 : FVec Ideal S8x32x16 .f32) (x3 : FVec Ideal S8x32x17 .f32)
  (x4 : FVec Ideal S2x8 .f32) (x5 : FVec Ideal S2 .f32)

theorem expo_ref (k : Fin 8) (b : Fin 32768) (r : Fin 32) :
    val_main_v12 (F := Ideal) x0 x1 x2 (ix3 k b r)
      = zero + expo (fun f => x0 (ix3 k b f)) (fun f => x1 (ix3 k r f)) (fun f => x2 (ix3 k r f)) := by
  rw [val_main_v12_apply]
  refine congrArg (zero + ·) (Finset.sum_congr rfl fun f _ => ?_)
  rw [val_main_v11_apply, val_main_v5_apply, val_main_v4_apply, val_main_v2_apply, val_main_v0_apply, val_main_v3_apply,
    val_main_v1_apply, val_main_v10_apply, val_main_v9_apply, val_main_v8_apply, val_main_v7_apply, val_main_v6_apply,
    val_main_cst_apply]
  have i0 : idx_main_v0 (idx_main_v2 (idx_main_v12 (ix3 k b r) f)) = ix3 k b f :=
    funext fun a => Fin.ext (by match a with | ⟨0, _⟩ => rfl | ⟨1, _⟩ => rfl | ⟨2, _⟩ => rfl)
  have i1 : idx_main_v1 (idx_main_v3 (idx_main_v12 (ix3 k b r) f)) = ix3 k r f :=
    funext fun a => Fin.ext (by match a with | ⟨0, _⟩ => rfl | ⟨1, _⟩ => rfl | ⟨2, _⟩ => rfl)
  have i2 : idx_main_v9 (idx_main_v10 (idx_main_v12 (ix3 k b r) f)) = ix3 k r f :=
    funext fun a => Fin.ext (by match a with | ⟨0, _⟩ => rfl | ⟨1, _⟩ => rfl | ⟨2, _⟩ => rfl)
  rw [i0, i1, i2]
  rfl

theorem rule_ref (k : Fin 8) (b : Fin 32768) (r : Fin 32) :
    val_main_v14 (F := Ideal) x0 x1 x2 (ix3 k b r)
      = rule (fun f => x0 (ix3 k b f)) (fun r f => x1 (ix3 k r f)) (fun r f => x2 (ix3 k r f)) r := by
  rw [val_main_v14_apply, val_main_v13_apply, expo_ref, zero_eq, zero_add]
  rfl

theorem norm_ref (k : Fin 8) (b : Fin 32768) (r : Fin 32) :
    val_main_v18 (F := Ideal) x0 x1 x2 (ix3 k b r)
      = Ideal.div (rule (fun f => x0 (ix3 k b f)) (fun r f => x1 (ix3 k r f)) (fun r f => x2 (ix3 k r f)) r)
          (∑ r' : Fin 32, rule (fun f => x0 (ix3 k b f)) (fun r f => x1 (ix3 k r f)) (fun r f => x2 (ix3 k r f)) r') := by
  rw [val_main_v18_apply, val_main_v17_apply, val_main_v16_apply, val_main_v15_apply, rule_ref]
  have ik : ∀ r' : Fin 32, idx_main_v15 (idx_main_v16 (idx_main_v17 (ix3 k b r))) r' = ix3 k b r' := fun r' =>
    funext fun a => Fin.ext (by match a with | ⟨0, _⟩ => rfl | ⟨1, _⟩ => rfl | ⟨2, _⟩ => rfl)
  simp only [ik, rule_ref]
  show Ideal.div _ (zero + _) = _
  rw [zero_eq, zero_add]

theorem conq_ref (k : Fin 8) (b : Fin 32768) (r : Fin 32) :
    val_main_v25 (F := Ideal) x0 x3 (ix3 k b r) = conq (fun f => x0 (ix3 k b f)) (fun r j => x3 (ix3 k r j)) r := by
  rw [val_main_v25_apply, val_main_v24_apply, val_main_v21_apply, val_main_v20_apply, val_main_v19_apply, val_main_v23_apply]
  unfold conq
  have ib : idx_main_v19 (idx_main_v20 (idx_main_v21 (idx_main_v24 (ix3 k b r)))) = ix3 k r (16 : Fin 17) :=
    funext fun a => Fin.ext (by
      have hr : r.val < 32 := r.isLt
      match a with
      | ⟨0, _⟩ => show (k.val * 32 + r.val) / 32 = k.val; omega
      | ⟨1, _⟩ => show (k.val * 32 + r.val) / 1 % 32 = r.val; omega
      | ⟨2, _⟩ => rfl)
  rw [ib]
  refine congrArg (_ + ·) (Finset.sum_congr rfl fun f _ => ?_)
  rw [val_main_v22_apply]
  have il : lidx_main_v23 (ix3 k b r) f = ix3 k b f :=
    funext fun a => Fin.ext (by match a with | ⟨0, _⟩ => rfl | ⟨1, _⟩ => rfl | ⟨2, _⟩ => rfl)
  have ir : idx_main_v22 (ridx_main_v23 (ix3 k b r) f) = ix3 k r f.castSucc :=
    funext fun a => Fin.ext (by match a with | ⟨0, _⟩ => rfl | ⟨1, _⟩ => rfl | ⟨2, _⟩ => rfl)
  rw [il, ir]

theorem tsk_ref (k : Fin 8) (b : Fin 32768) :
    val_main_v27 (F := Ideal) x0 x1 x2 x3 (ix2 k b)
      = tsk (fun f => x0 (ix3 k b f)) (fun r f => x1 (ix3 k r f)) (fun r f => x2 (ix3 k r f)) (fun r j => x3 (ix3 k r j)) := by
  rw [val_main_v27_apply]
  unfold tsk
  show zero + _ = _
  rw [zero_eq, zero_add]
  refine Finset.sum_congr rfl fun r _ => ?_
  have ir : idx_main_v27 (ix2 k b) r = ix3 k b r :=
    funext fun a => Fin.ext (by match a with | ⟨0, _⟩ => rfl | ⟨1, _⟩ => rfl | ⟨2, _⟩ => rfl)
  rw [val_main_v26_apply, ir, norm_ref, conq_ref]
  rfl

theorem logit_ref (b : Fin 32768) (o : Fin 2) :
    val_main_v31 (F := Ideal) x0 x1 x2 x3 x4 x5 (ix2 b o)
      = logit (fun k => tsk (fun f => x0 (ix3 k b f)) (fun r f => x1 (ix3 k r f)) (fun r f => x2 (ix3 k r f)) (fun r j => x3 (ix3 k r j)))
          (fun k => x4 (ix2 o k)) (x5 (ix1 o)) := by
  rw [val_main_v31_apply, val_main_v28_apply, val_main_v30_apply, val_main_v29_apply]
  unfold logit
  have il : ∀ k : Fin 8, lidx_main_v28 (ix2 b o) k = ix2 k b := fun k =>
    funext fun a => Fin.ext (by match a with | ⟨0, _⟩ => rfl | ⟨1, _⟩ => rfl)
  have ir : ∀ k : Fin 8, ridx_main_v28 (ix2 b o) k = ix2 o k := fun k =>
    funext fun a => Fin.ext (by match a with | ⟨0, _⟩ => rfl | ⟨1, _⟩ => rfl)
  have ib : idx_main_v29 (idx_main_v30 (ix2 b o)) = ix1 o :=
    funext fun a => Fin.ext (by match a with | ⟨0, _⟩ => rfl)
  simp only [il, ir, ib, tsk_ref]
  rfl

/-- The shift the reference subtracts on row `b`: the maximum of `-∞` and the row's logits. -/
theorem shift_ref (b : Fin 32768) :
    val_main_v34 (F := Ideal) x0 x1 x2 x3 x4 x5 (ix1 b)
      = max ninf ((Finset.univ : Finset (Fin 2)).fold max ninf (fun o => val_main_v31 (F := Ideal) x0 x1 x2 x3 x4 x5 (ix2 b o))) := by
  rw [val_main_v34_apply, val_main_v33_apply, val_main_cst_4_apply]
  unfold val_main_v32
  exact congrArg (max ninf) (Cert.Layout3.rowMaxH _ _ reducesTo_S32768x2_S32768_d1 h_S_ b)

theorem softmax_ref (b : Fin 32768) (o : Fin 2) :
    val_main_v42 (F := Ideal) x0 x1 x2 x3 x4 x5 (ix2 b o)
      = softmax2 (fun o' => val_main_v31 (F := Ideal) x0 x1 x2 x3 x4 x5 (ix2 b o')) o := by
  have e38 : ∀ o' : Fin 2, val_main_v38 (F := Ideal) x0 x1 x2 x3 x4 x5 (ix2 b o')
      = Ideal.exp (val_main_v31 (F := Ideal) x0 x1 x2 x3 x4 x5 (ix2 b o')
          - max ninf ((Finset.univ : Finset (Fin 2)).fold max ninf (fun o => val_main_v31 (F := Ideal) x0 x1 x2 x3 x4 x5 (ix2 b o)))) := fun o' => by
    rw [val_main_v38_apply, val_main_v37_apply, val_main_v36_apply, val_main_v35_apply]
    have ii : idx_main_v35 (idx_main_v36 (ix2 b o')) = ix1 b := funext fun a => Fin.ext (by match a with | ⟨0, _⟩ => rfl)
    rw [ii, shift_ref]
    simp only [Ideal.hostUnary_exp_def, Ideal.subf_def]
  rw [val_main_v42_apply, val_main_v41_apply, val_main_v40_apply, val_main_v39_apply, e38]
  have ij : idx_main_v40 (idx_main_v41 (ix2 b o)) = ix1 b := funext fun a => Fin.ext (by match a with | ⟨0, _⟩ => rfl)
  have ik : ∀ o' : Fin 2, idx_main_v39 (ix1 b) o' = ix2 b o' := fun o' =>
    funext fun a => Fin.ext (by match a with | ⟨0, _⟩ => rfl | ⟨1, _⟩ => rfl)
  rw [ij]
  simp only [ik, e38]
  unfold softmax2
  show Ideal.div _ (zero + _) = _
  rw [zero_eq, zero_add]

/-- The reference's result array is the classifier of its arguments. -/
theorem result_eq : val_main_v42 (F := Ideal) x0 x1 x2 x3 x4 x5 = classify x0 x1 x2 x3 x4 x5 := by
  funext i
  obtain ⟨b, o, rfl⟩ : ∃ (b : Fin 32768) (o : Fin 2), i = ix2 b o := ⟨i 0, i 1, eq_ix2 i⟩
  rw [softmax_ref]
  show _ = classifyAt x0 x1 x2 x3 x4 x5 b o
  unfold classifyAt
  simp only [logit_ref]

end Cert.RefBridge

end
-- ==== Proof.Domain.lean ====
/-
  No width is zero, from the stated domain.

  The domain predicate is a conjunction of six finiteness tests and the test that every width differs from zero; it is
  stated as the all-ones value of an `and` over those tests. Its last conjunct, read back through the `and` over all
  axes, says that at every index the comparison "width ≠ 0" holds, which on the extended reals is the statement itself.
-/
import proofs.«104609_j70042326663683_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Domain

open Idealize.ShloMosaic Cert.Pre_finite_inputs

instance : Subsingleton S_.Idx := ⟨fun a b => funext fun d => d.elim0⟩

theorem sigma_ne [Cert.Pre_finite_inputs.Facts] (a0 : FVec Ideal S8x32768x16 .f32) (a1 a2 : FVec Ideal S8x32x16 .f32)
    (a3 : FVec Ideal S8x32x17 .f32) (a4 : FVec Ideal S2x8 .f32) (a5 : FVec Ideal S2 .f32)
    (h : Cert.Pre_finite_inputs.fn (F := Ideal) a0 a1 a2 a3 a4 a5 = fun _ => 1#1) (i : S8x32x16.Idx) : a2 i ≠ 0 := by
  have h0 := congrFun h ValueIdx.ix0
  dsimp only [fn, fn_part1] at h0
  obtain ⟨-, h31⟩ := IntOp.andi_eq_one.1 h0
  have hi := Host.reduce_andi_all _ _ _ _ _ h31 i
  have hc : Ideal.cmp .une (a2 i) (Ideal.ofBits .f32 0x00000000#32) = 1#1 := hi
  rw [Ideal.ofBits_zero_f32] at hc
  intro hz
  rw [hz] at hc
  simp [Ideal.cmp] at hc

end Cert.Domain

end
-- ==== Proof.lean ====
/-
  A Gaussian fuzzy-rule classifier: eight branches of thirty-two rules over sixteen features, their outputs mixed into two
  logits and passed through a softmax. The kernel handles 1024 rows per grid point with the eight branches unrolled and
  the exponents' terms multiplied by `1 / (2σ²)`; the reference divides each term by `2σ²` and contracts the eight
  branches in one product. On the extended reals both are the function `classify` of `Proof/Spec.lean` wherever no
  width `σ` is zero — the stated domain — since a quotient by a nonzero extended real is the product with its
  reciprocal; sums may be reassociated freely there, and the two softmaxes are the same operations on the same logits.

  The three frames are the programs' runs; nothing was rewritten between the kernel and its idealization; the value
  claim sets the kernel's result array (`Proof/KernelValue.lean`) beside the reference's (`Proof/RefValue.lean`).
-/
import proofs.«104609_j70042326663683_2_alg».proof.Defs
import proofs.«104609_j70042326663683_2_alg».proof.Proof.Gen.Kernel
import proofs.«104609_j70042326663683_2_alg».proof.Proof.Gen.Kernel.Skeleton
import proofs.«104609_j70042326663683_2_alg».proof.Proof.Gen.Kernel.Launch
import proofs.«104609_j70042326663683_2_alg».proof.Proof.Gen.Kernel.Points
import proofs.«104609_j70042326663683_2_alg».proof.Proof.Gen.Kernel.Frame
import proofs.«104609_j70042326663683_2_alg».proof.Proof.Gen.KernelIdeal
import proofs.«104609_j70042326663683_2_alg».proof.Proof.Gen.KernelIdeal.Skeleton
import proofs.«104609_j70042326663683_2_alg».proof.Proof.Gen.KernelIdeal.Launch
import proofs.«104609_j70042326663683_2_alg».proof.Proof.Gen.KernelIdeal.Points
import proofs.«104609_j70042326663683_2_alg».proof.Proof.Gen.KernelIdeal.Frame
import proofs.«104609_j70042326663683_2_alg».proof.Proof.Gen.ReferenceIdeal
import proofs.«104609_j70042326663683_2_alg».proof.Proof.Gen.Pre_finite_inputs
import proofs.«104609_j70042326663683_2_alg».proof.Proof.Gen.KernelIdeal.Value
import proofs.«104609_j70042326663683_2_alg».proof.Proof.Gen.ReferenceIdeal.Run
import proofs.«104609_j70042326663683_2_alg».proof.Proof.Gen.ReferenceIdeal.Read
import proofs.«104609_j70042326663683_2_alg».proof.Proof.KernelValue
import proofs.«104609_j70042326663683_2_alg».proof.Proof.RefValue
import proofs.«104609_j70042326663683_2_alg».proof.Proof.Domain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with no width zero, both result arrays are the classifier of the arguments. -/
theorem algebraic : Cert.algebraic_KernelIdeal_ReferenceIdeal := by
  intro m ρ m' ρ' hpre hagree
  have hs : ∀ c : Dev Cert.KernelIdeal.nD, ∀ i,
      (m ((c.tc : Thread Cert.KernelIdeal.nD Cert.KernelIdeal.τ).loc Cert.KernelIdeal.main_arg2) : Cert.KernelIdeal.S8x32x16.Idx → EReal) i ≠ (0 : EReal) :=
    fun c i => Cert.Domain.sigma_ne _ _ _ _ _ _ (hpre c) i
  refine ⟨_, Cert.KernelValue.run m ρ hs, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.RefBridge.result_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
